-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x64 : Shape := ⟨2, ![5000, 64]⟩
abbrev S5000x1 : Shape := ⟨2, ![5000, 1]⟩
abbrev S1700000x64 : Shape := ⟨2, ![1700000, 64]⟩
abbrev S1x64 : Shape := ⟨2, ![1, 64]⟩
abbrev S64x128 : Shape := ⟨2, ![64, 128]⟩
abbrev S1x128 : Shape := ⟨2, ![1, 128]⟩
abbrev S1x1 : Shape := ⟨2, ![1, 1]⟩
abbrev S100000x128 : Shape := ⟨2, ![100000, 128]⟩
abbrev S5000x128 : Shape := ⟨2, ![5000, 128]⟩

abbrev nBuf : Space → Nat
  | .hbm => 79
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x64, .f32⟩
  | .hbm, ⟨44, _⟩ => ⟨S_, .f32⟩
  | .hbm, ⟨45, _⟩ => ⟨S100000x64, .f32⟩
  | .hbm, ⟨46, _⟩ => ⟨S1700000x1, .i32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S_, .f32⟩
  | .hbm, ⟨67, _⟩ => ⟨S64x128, .f32⟩
  | .hbm, ⟨68, _⟩ => ⟨S_, .i32⟩
  | .hbm, ⟨69, _⟩ => ⟨S1, .i32⟩
  | .hbm, ⟨70, _⟩ => ⟨S64x128, .f32⟩
  | .hbm, ⟨71, _⟩ => ⟨S_, .f32⟩
  | .hbm, ⟨72, _⟩ => ⟨S1x128, .f32⟩
  | .hbm, ⟨73, _⟩ => ⟨S1x1, .f32⟩
  | .hbm, ⟨74, _⟩ => ⟨S_, .i32⟩
  | .hbm, ⟨75, _⟩ => ⟨S1, .i32⟩
  | .hbm, ⟨76, _⟩ => ⟨S1x128, .f32⟩
  | .hbm, ⟨77, _⟩ => ⟨S100000x128, .f32⟩
  | .hbm, ⟨78, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x128 : S_.BroadcastsInDim S64x128 (![] : Fin 0 → Fin S64x128.rank)
  bcast_S_S1 : S_.BroadcastsInDim S1 (![] : Fin 0 → Fin S1.rank)
  bcast_S_S1x128 : S_.BroadcastsInDim S1x128 (![] : Fin 0 → Fin S1x128.rank)
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S100000x1_0_0 : S100000x128.Slices ![0, 0] S100000x1
  scatter_S100000_S1700000x1_S1700000_n_0_0_1_wf : ScatterDims.WF S100000 S1700000x1 S1700000 [] [0] [0] 1
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x128_S1_S64x1_01_n_1_0_wf : ScatterDims.WF S64x128 S1 S64x1 [0, 1] [] [1] 0
  scatter_S1x128_S1_S1x1_01_n_1_0_wf : ScatterDims.WF S1x128 S1 S1x1 [0, 1] [] [1] 0
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x128_S1_S64x1_01_n_1_0 : ScatterDims S64x128 S1 S64x1 where
  updateWindowDims := [0, 1]
  insertedWindowDims := []
  scatterDimsToOperandDims := [1]
  indexVectorDim := 0
  wf := scatter_S64x128_S1_S64x1_01_n_1_0_wf
def scatter_S1x128_S1_S1x1_01_n_1_0 : ScatterDims S1x128 S1 S1x1 where
  updateWindowDims := [0, 1]
  insertedWindowDims := []
  scatterDimsToOperandDims := [1]
  indexVectorDim := 0
  wf := scatter_S1x128_S1_S1x1_01_n_1_0_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x64 : Shape := ⟨2, ![1700000, 64]⟩
abbrev S1x64 : Shape := ⟨2, ![1, 64]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x64, .f32⟩
  | .hbm, ⟨44, _⟩ => ⟨S_, .f32⟩
  | .hbm, ⟨45, _⟩ => ⟨S100000x64, .f32⟩
  | .hbm, ⟨46, _⟩ => ⟨S1700000x1, .i32⟩
  | .hbm, ⟨47, _⟩ => ⟨S100000x64, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S1700000, .f32⟩
  | .hbm, ⟨60, _⟩ => ⟨S_, .f32⟩
  | .hbm, ⟨61, _⟩ => ⟨S100000, .f32⟩
  | .hbm, ⟨62, _⟩ => ⟨S1700000x1, .i32⟩
  | .hbm, ⟨63, _⟩ => ⟨S100000, .f32⟩
  | .hbm, ⟨64, _⟩ => ⟨S_, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x64, .f32⟩
  | .hbm, ⟨90, _⟩ => ⟨S_, .f32⟩
  | .hbm, ⟨91, _⟩ => ⟨S100000x64, .f32⟩
  | .hbm, ⟨92, _⟩ => ⟨S1700000x1, .i32⟩
  | .hbm, ⟨93, _⟩ => ⟨S100000x64, .f32⟩
  | .hbm, ⟨94, _⟩ => ⟨S100000, .f32⟩
  | .hbm, ⟨95, _⟩ => ⟨S100000x1, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S100000x1, .f32⟩
  | .hbm, ⟨102, _⟩ => ⟨S1x1, .f32⟩
  | .hbm, ⟨103, _⟩ => ⟨S100000x1, .f32⟩
  | .hbm, ⟨104, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call2_cst : Ref sig .tc := ⟨.hbm, 55, rfl⟩
abbrev main_call2_v0 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_call3_v0 : Ref sig .tc := ⟨.hbm, 65, rfl⟩
abbrev main_call3_v1 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_call4_v0 : Ref sig .tc := ⟨.hbm, 73, rfl⟩
abbrev main_call4_v1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its result named.

  The kernel's entry point is fourteen segments in a row: stretches of host operations and five kernel launches.
  The buffer contents at each segment boundary are a fold from the launch memory: a host stretch applies its
  operations in order, a launch leaves each of its arrays at what the launch's write-backs leave and every other
  buffer as it found it.  Every weakly fair execution from a memory with zero counters terminates, nothing faulting,
  and every unscoped buffer then holds the last boundary's contents.  Read at the result buffer this names the
  result; read at an argument it is the argument as launched, since no segment writes one.
-/
import proofs.«143172_j2327872274540_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the entry point terminates, nothing faulting; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v50) = W14 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v50 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.RunValue

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«143172_j2327872274540_1_alg».proof.Proof.LibPlainDot
import proofs.«143172_j2327872274540_1_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Layers.lean ====
/-
  THE LAYERS OF A TWO-LAYER GRAPH CONVOLUTION AS FUNCTIONS OF WHOLE ARRAYS, element by element on the extended
  reals, generic in the extents; and the host spellings that compute them.

  * scaleProd X v W      — every row a of X : [A, K] scaled by the entry a of the column v : [A, 1], then the plain
                           product with W : [K, B]:   (a, c) ↦ Σ_k (X(a, k) · v(a, 0)) · W(k, c);
  * scaleBiasMax Z v b z — every row a of Z : [A, K] scaled by v(a, 0), the row b : [1, K] added, then the maximum
                           with z;
  * scaleBias Z v b      — the same without the maximum;
  * prodBias X W b       — the plain product of X : [A, K] with W : [K, B] and the row b : [1, B] added to every row.

  Each depends on row a of its first operand only, which is why a tiling by row blocks computes it block by block.

  A vector seen as a column reads its entry a at (a, 0) whether the column is made by a reshape or by a keepdims
  broadcast, and a vector seen as a row reads its entry k at (0, k); so the host's "multiply by the column broadcast
  along the rows, contract" IS scaleProd at the reshaped column, and likewise for the other three.
-/
import proofs.«143172_j2327872274540_1_alg».proof.Proof.LibDenseLayer
import proofs.«143172_j2327872274540_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn

open Idealize.ShloMosaic Idealize.ShloMosaic.ValueIdx

variable {A K B : Nat}

/-- Rows scaled by a column, then the plain product. -/
def scaleProd (X : (⟨2, ![A, K]⟩ : Shape).Idx → EReal) (v : (⟨2, ![A, 1]⟩ : Shape).Idx → EReal)
    (W : (⟨2, ![K, B]⟩ : Shape).Idx → EReal) : (⟨2, ![A, B]⟩ : Shape).Idx → EReal :=
  Cert.Layer.prod (fun i => X i * v (ix2 (i 0) (0 : Fin 1))) W

/-- Rows scaled by a column, a row added, then the maximum with a number. -/
def scaleBiasMax (Z : (⟨2, ![A, K]⟩ : Shape).Idx → EReal) (v : (⟨2, ![A, 1]⟩ : Shape).Idx → EReal)
    (b : (⟨2, ![1, K]⟩ : Shape).Idx → EReal) (z : EReal) : (⟨2, ![A, K]⟩ : Shape).Idx → EReal :=
  fun i => max (Z i * v (ix2 (i 0) (0 : Fin 1)) + b (ix2 (0 : Fin 1) (i 1))) z

/-- Rows scaled by a column, a row added. -/
def scaleBias (Z : (⟨2, ![A, K]⟩ : Shape).Idx → EReal) (v : (⟨2, ![A, 1]⟩ : Shape).Idx → EReal)
    (b : (⟨2, ![1, K]⟩ : Shape).Idx → EReal) : (⟨2, ![A, K]⟩ : Shape).Idx → EReal :=
  fun i => Z i * v (ix2 (i 0) (0 : Fin 1)) + b (ix2 (0 : Fin 1) (i 1))

/-- The plain product and a row added to every row. -/
def prodBias (X : (⟨2, ![A, K]⟩ : Shape).Idx → EReal) (W : (⟨2, ![K, B]⟩ : Shape).Idx → EReal)
    (b : (⟨2, ![1, B]⟩ : Shape).Idx → EReal) : (⟨2, ![A, B]⟩ : Shape).Idx → EReal :=
  fun i => Cert.Layer.prod X W i + b (ix2 (0 : Fin 1) (i 1))

theorem scaleProd_apply (X : (⟨2, ![A, K]⟩ : Shape).Idx → EReal) (v : (⟨2, ![A, 1]⟩ : Shape).Idx → EReal)
    (W : (⟨2, ![K, B]⟩ : Shape).Idx → EReal) (a : Fin A) (c : Fin B) :
    scaleProd X v W (ix2 a c) = ∑ k : Fin K, (X (ix2 a k) * v (ix2 a (0 : Fin 1))) * W (ix2 k c) := rfl

theorem prodBias_apply (X : (⟨2, ![A, K]⟩ : Shape).Idx → EReal) (W : (⟨2, ![K, B]⟩ : Shape).Idx → EReal)
    (b : (⟨2, ![1, B]⟩ : Shape).Idx → EReal) (a : Fin A) (c : Fin B) :
    prodBias X W b (ix2 a c) = (∑ k : Fin K, X (ix2 a k) * W (ix2 k c)) + b (ix2 (0 : Fin 1) c) := rfl

theorem scaleBiasMax_apply (Z : (⟨2, ![A, K]⟩ : Shape).Idx → EReal) (v : (⟨2, ![A, 1]⟩ : Shape).Idx → EReal)
    (b : (⟨2, ![1, K]⟩ : Shape).Idx → EReal) (z : EReal) (a : Fin A) (c : Fin K) :
    scaleBiasMax Z v b z (ix2 a c) = max (Z (ix2 a c) * v (ix2 a (0 : Fin 1)) + b (ix2 (0 : Fin 1) c)) z := rfl

theorem scaleBias_apply (Z : (⟨2, ![A, K]⟩ : Shape).Idx → EReal) (v : (⟨2, ![A, 1]⟩ : Shape).Idx → EReal)
    (b : (⟨2, ![1, K]⟩ : Shape).Idx → EReal) (a : Fin A) (c : Fin K) :
    scaleBias Z v b (ix2 a c) = Z (ix2 a c) * v (ix2 a (0 : Fin 1)) + b (ix2 (0 : Fin 1) c) := rfl

/-! ## The host spellings -/

/-- A vector broadcast to a column and the column along the rows, read at (a, k), is the vector reshaped to a column
    read at (a, 0): both are the vector's entry a. -/
theorem bcast_col_eq_reshape (v : (⟨1, ![A]⟩ : Shape).Idx → EReal)
    (h1 : (⟨1, ![A]⟩ : Shape).BroadcastsInDim ⟨2, ![A, 1]⟩ ![0])
    (h2 : (⟨2, ![A, 1]⟩ : Shape).BroadcastsInDim ⟨2, ![A, K]⟩ ![0, 1])
    (hc : (⟨1, ![A]⟩ : Shape).ShapeCasts ⟨2, ![A, 1]⟩) (a : Fin A) (k : Fin K) :
    broadcastInDim ⟨2, ![A, K]⟩ ![0, 1] h2 (broadcastInDim ⟨2, ![A, 1]⟩ ![0] h1 v) (ix2 a k)
      = shapeCast ⟨2, ![A, 1]⟩ v hc (ix2 a (0 : Fin 1)) := by
  rw [Cert.LibSegSum.bcast_col_apply, Cert.LibKeepdims.shapeCast_a_a1_apply]

/-- A vector broadcast to a row and the row down the columns, read at (a, k), is the vector reshaped to a row read
    at (0, k). -/
theorem bcast_row_eq_reshape (b : (⟨1, ![K]⟩ : Shape).Idx → EReal)
    (h1 : (⟨1, ![K]⟩ : Shape).BroadcastsInDim ⟨2, ![1, K]⟩ ![1])
    (h2 : (⟨2, ![1, K]⟩ : Shape).BroadcastsInDim ⟨2, ![A, K]⟩ ![0, 1])
    (hc : (⟨1, ![K]⟩ : Shape).ShapeCasts ⟨2, ![1, K]⟩) (a : Fin A) (k : Fin K) :
    broadcastInDim ⟨2, ![A, K]⟩ ![0, 1] h2 (broadcastInDim ⟨2, ![1, K]⟩ ![1] h1 b) (ix2 a k)
      = shapeCast ⟨2, ![1, K]⟩ b hc (ix2 (0 : Fin 1) k) := by
  rw [Cert.LibSegSum.bcast_row_apply, shapeCast_a_1a_apply]

/-- The host's product of the row-scaled array is scaleProd at the reshaped column. -/
theorem host_scaleProd (d : DotDims ⟨2, ![A, K]⟩ ⟨2, ![K, B]⟩ ⟨2, ![A, B]⟩)
    (e1 : d.lhsContracting = [1]) (e2 : d.rhsContracting = [0]) (e3 : d.lhsNonContracting = [0])
    (e4 : d.rhsNonContracting = [1]) (e5 : d.lhsBatch = []) (e6 : d.rhsBatch = [])
    (X : FVec Ideal ⟨2, ![A, K]⟩ .f32) (v : FVec Ideal ⟨1, ![A]⟩ .f32) (W : FVec Ideal ⟨2, ![K, B]⟩ .f32)
    (h1 : (⟨1, ![A]⟩ : Shape).BroadcastsInDim ⟨2, ![A, 1]⟩ ![0])
    (h2 : (⟨2, ![A, 1]⟩ : Shape).BroadcastsInDim ⟨2, ![A, K]⟩ ![0, 1])
    (hc : (⟨1, ![A]⟩ : Shape).ShapeCasts ⟨2, ![A, 1]⟩) :
    Host.dotGeneral d none (mulf X (broadcastInDim ⟨2, ![A, K]⟩ ![0, 1] h2 (broadcastInDim ⟨2, ![A, 1]⟩ ![0] h1 v))) W
      = scaleProd X (shapeCast ⟨2, ![A, 1]⟩ v hc) W := by
  rw [Cert.Layer.dotGeneral_eq_prod d e1 e2 e3 e4 e5 e6]
  unfold scaleProd
  refine congrArg (fun Y => Cert.Layer.prod Y W) (funext fun i => ?_)
  obtain ⟨a, k, rfl⟩ : ∃ (a : Fin A) (k : Fin K), i = ix2 a k := ⟨i 0, i 1, eq_ix2 i⟩
  show X (ix2 a k) * _ = X (ix2 a k) * _
  rw [bcast_col_eq_reshape v h1 h2 hc a k]
  rfl

/-- The host's scale, bias add and maximum with a broadcast scalar is scaleBiasMax at the reshaped column and row. -/
theorem host_scaleBiasMax (Z : FVec Ideal ⟨2, ![A, K]⟩ .f32) (v : FVec Ideal ⟨1, ![A]⟩ .f32) (b : FVec Ideal ⟨1, ![K]⟩ .f32)
    (h1 : (⟨1, ![A]⟩ : Shape).BroadcastsInDim ⟨2, ![A, 1]⟩ ![0])
    (h2 : (⟨2, ![A, 1]⟩ : Shape).BroadcastsInDim ⟨2, ![A, K]⟩ ![0, 1])
    (hc : (⟨1, ![A]⟩ : Shape).ShapeCasts ⟨2, ![A, 1]⟩)
    (g1 : (⟨1, ![K]⟩ : Shape).BroadcastsInDim ⟨2, ![1, K]⟩ ![1])
    (g2 : (⟨2, ![1, K]⟩ : Shape).BroadcastsInDim ⟨2, ![A, K]⟩ ![0, 1])
    (gc : (⟨1, ![K]⟩ : Shape).ShapeCasts ⟨2, ![1, K]⟩)
    (z : FVec Ideal ⟨0, ![]⟩ .f32) (h0 : (⟨0, ![]⟩ : Shape).BroadcastsInDim ⟨2, ![A, K]⟩ ![]) :
    maximumf (addf (mulf Z (broadcastInDim ⟨2, ![A, K]⟩ ![0, 1] h2 (broadcastInDim ⟨2, ![A, 1]⟩ ![0] h1 v)))
          (broadcastInDim ⟨2, ![A, K]⟩ ![0, 1] g2 (broadcastInDim ⟨2, ![1, K]⟩ ![1] g1 b)))
        (broadcastInDim ⟨2, ![A, K]⟩ ![] h0 z)
      = scaleBiasMax Z (shapeCast ⟨2, ![A, 1]⟩ v hc) (shapeCast ⟨2, ![1, K]⟩ b gc) (z ix0) :=
  funext fun i => by
    obtain ⟨a, k, rfl⟩ : ∃ (a : Fin A) (k : Fin K), i = ix2 a k := ⟨i 0, i 1, eq_ix2 i⟩
    have hz : broadcastInDim ⟨2, ![A, K]⟩ ![] h0 z (ix2 a k) = z ix0 :=
      broadcastInDim_apply ![] h0 z (ix2 a k) ix0 fun d => d.elim0
    show max (Z (ix2 a k) * _ + _) _ = max (Z (ix2 a k) * _ + _) (z ix0)
    rw [hz, bcast_col_eq_reshape v h1 h2 hc a k, bcast_row_eq_reshape b g1 g2 gc a k]
    rfl

/-- The host's scale and bias add is scaleBias at the reshaped column and row. -/
theorem host_scaleBias (Z : FVec Ideal ⟨2, ![A, K]⟩ .f32) (v : FVec Ideal ⟨1, ![A]⟩ .f32) (b : FVec Ideal ⟨1, ![K]⟩ .f32)
    (h1 : (⟨1, ![A]⟩ : Shape).BroadcastsInDim ⟨2, ![A, 1]⟩ ![0])
    (h2 : (⟨2, ![A, 1]⟩ : Shape).BroadcastsInDim ⟨2, ![A, K]⟩ ![0, 1])
    (hc : (⟨1, ![A]⟩ : Shape).ShapeCasts ⟨2, ![A, 1]⟩)
    (g1 : (⟨1, ![K]⟩ : Shape).BroadcastsInDim ⟨2, ![1, K]⟩ ![1])
    (g2 : (⟨2, ![1, K]⟩ : Shape).BroadcastsInDim ⟨2, ![A, K]⟩ ![0, 1])
    (gc : (⟨1, ![K]⟩ : Shape).ShapeCasts ⟨2, ![1, K]⟩) :
    addf (mulf Z (broadcastInDim ⟨2, ![A, K]⟩ ![0, 1] h2 (broadcastInDim ⟨2, ![A, 1]⟩ ![0] h1 v)))
          (broadcastInDim ⟨2, ![A, K]⟩ ![0, 1] g2 (broadcastInDim ⟨2, ![1, K]⟩ ![1] g1 b))
      = scaleBias Z (shapeCast ⟨2, ![A, 1]⟩ v hc) (shapeCast ⟨2, ![1, K]⟩ b gc) :=
  funext fun i => by
    obtain ⟨a, k, rfl⟩ : ∃ (a : Fin A) (k : Fin K), i = ix2 a k := ⟨i 0, i 1, eq_ix2 i⟩
    show Z (ix2 a k) * _ + _ = Z (ix2 a k) * _ + _
    rw [bcast_col_eq_reshape v h1 h2 hc a k, bcast_row_eq_reshape b g1 g2 gc a k]
    rfl

end Cert.Gcn

end
-- ==== Proof.Stages.lean ====
/-
  THE WHOLE COMPUTATION AS ONE COMPOSITION, in the vocabulary both programs are compared in.

  With s = src ++ [0 … N), t = dst ++ [0 … N) the edge lists with the self loops, the out- and in-degrees clipped below
  by one, and colS, colT the inverse square roots of the degrees as [N, 1] columns:

      agg H     = the sum over the edges e of row s(e) of H, added into row t(e)   (gather, then add-scatter),
      H1        = max (agg (scaleProd x colS W1) · colT + b1, 0),
      H2        =      agg (scaleProd H1 colS W2) · colT + b2,
      result    = column 0 of  prodBias H2 P p,

  for ANY [64, 128] matrix P and [1, 128] row p; with P's column 0 the regressor's weights and p's entry 0 its bias,
  column 0 of prodBias H2 P p is H2 · Wr + br.

  The edge-indexed stages (the index lists, the degrees, the aggregation) are written with the reference program's
  own stage functions, so that they never have to be opened: both programs apply them to arrays already shown equal.
-/
import proofs.«143172_j2327872274540_1_alg».proof.Proof.Gen.ReferenceIdeal.Read
import proofs.«143172_j2327872274540_1_alg».proof.Proof.Layers

noncomputable section

namespace Cert.Gcn.Stages

open Cert.ReferenceIdeal Cert.ReferenceIdeal.Read
open Idealize.ShloMosaic Idealize.ShloMosaic.ValueIdx

/-- The rows of H gathered at the edges' sources and added into the edges' targets. -/
def agg (a1 a2 : IVec S1600000 32) (H : FVec Ideal S100000x64 .f32) : FVec Ideal S100000x64 .f32 :=
  Host.scatterAdd scatter_S100000x64_S1700000x1_S1700000x64_1_0_0_1 (val_main_v24 (F := Ideal)) (val_main_v25 (F := Ideal) a2)
    (Host.gather gather_S100000x64_S1700000x1_S1700000x64_1_0_n_n_0_1_164 H (val_main_v22 (F := Ideal) a1))

/-- The inverse square roots of the clipped out-degrees, as a column. -/
def colS (hc : S100000.ShapeCasts S100000x1) (a1 : IVec S1600000 32) : FVec Ideal S100000x1 .f32 :=
  shapeCast S100000x1 (val_main_v12 (F := Ideal) a1) hc

/-- The inverse square roots of the clipped in-degrees, as a column. -/
def colT (hc : S100000.ShapeCasts S100000x1) (a2 : IVec S1600000 32) : FVec Ideal S100000x1 .f32 :=
  shapeCast S100000x1 (val_main_v27 (F := Ideal) a2) hc

/-- The hidden layer: aggregate the scaled product, rescale, add the bias, clamp at zero. -/
def hidden (hc : S100000.ShapeCasts S100000x1) (hr : S64.ShapeCasts S1x64)
    (x : FVec Ideal S100000x64 .f32) (a1 a2 : IVec S1600000 32) (W1 : FVec Ideal S64x64 .f32) (b1 : FVec Ideal S64 .f32) :
    FVec Ideal S100000x64 .f32 :=
  Cert.Gcn.scaleBiasMax (A := 100000) (K := 64) (agg a1 a2 (Cert.Gcn.scaleProd (A := 100000) (K := 64) (B := 64) x (colS hc a1) W1))
    (colT hc a2) (shapeCast S1x64 b1 hr) (FloatOps.ofBits (F := Ideal) .f32 0x00000000#32)

/-- The second layer: aggregate the scaled product of the hidden layer, rescale, add the bias. -/
def second (hc : S100000.ShapeCasts S100000x1) (hr : S64.ShapeCasts S1x64)
    (x : FVec Ideal S100000x64 .f32) (a1 a2 : IVec S1600000 32) (W1 : FVec Ideal S64x64 .f32) (b1 : FVec Ideal S64 .f32)
    (W2 : FVec Ideal S64x64 .f32) (b2 : FVec Ideal S64 .f32) : FVec Ideal S100000x64 .f32 :=
  Cert.Gcn.scaleBias (A := 100000) (K := 64)
    (agg a1 a2 (Cert.Gcn.scaleProd (A := 100000) (K := 64) (B := 64) (hidden hc hr x a1 a2 W1 b1) (colS hc a1) W2))
    (colT hc a2) (shapeCast S1x64 b2 hr)

/-- The result: column 0 of the second layer times a [64, 128] matrix plus a [1, 128] row. -/
def spec (hc : S100000.ShapeCasts S100000x1) (hr : S64.ShapeCasts S1x64)
    (hs : (⟨2, ![100000, 128]⟩ : Shape).Slices ![0, 0] S100000x1)
    (x : FVec Ideal S100000x64 .f32) (a1 a2 : IVec S1600000 32) (W1 : FVec Ideal S64x64 .f32) (b1 : FVec Ideal S64 .f32)
    (W2 : FVec Ideal S64x64 .f32) (b2 : FVec Ideal S64 .f32)
    (P : FVec Ideal ⟨2, ![64, 128]⟩ .f32) (p : FVec Ideal ⟨2, ![1, 128]⟩ .f32) : FVec Ideal S100000x1 .f32 :=
  extractStridedSlice S100000x1 ![0, 0]
    (Cert.Gcn.prodBias (A := 100000) (K := 64) (B := 128) (second hc hr x a1 a2 W1 b1 W2 b2) P p) hs

end Cert.Gcn.Stages

end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.LibSetScatter.lean ====
/-
  Writing a block into an array (a scatter whose body returns the update): what the result holds at an element
  that exactly one update lands on.

  * the scatter is a left fold over the update indices; when update j₀ lands on element i and no other update
    does, the fold leaves the value of update j₀ at i, whatever the operand held there; an element no update lands
    on keeps the operand's value (for any body);
  * a [K, 1] block written into a [K, B] array (0 < B) at the column offset given by ONE scatter index that is 0:
    update (k, 0) lands on element (k, 0) and nowhere else does any update land, so the result holds the block in
    column 0 and the operand in every other column.
-/
import Idealize.ShloMosaic.PureOps.ShapeOps
import Idealize.ShloMosaic.Lib.ValueIdx

namespace Cert.Lib.SetScatter

open Idealize.ShloMosaic Idealize.ShloMosaic.ValueIdx

section General
variable {α : Type} {s si u : Shape} {w : Nat}

/-- The fold of the overwriting step over ANY list of update numbers, read at an element i that update j₀ lands on
    and no other update does: the value of update j₀ if its number is in the list, the accumulator's otherwise. -/
theorem foldl_set_apply (d : ScatterDims s si u) (idx : IVec si w) (upd : u.Idx → α) (j₀ : u.Idx) (i : s.Idx)
    (h₀ : d.resultIdx? j₀ idx = some i) (huniq : ∀ j, d.resultIdx? j idx = some i → j = j₀)
    (l : List (Fin u.numel)) (r : s.Idx → α) :
    l.foldl (fun r n =>
      match d.resultIdx? (u.rowMajor.symm n) idx with
      | some i => fun i' => if i' = i then (fun _ b => b) (r i) (upd (u.rowMajor.symm n)) else r i'
      | none => r) r i = if u.rowMajor j₀ ∈ l then upd j₀ else r i := by
  induction l generalizing r with
  | nil => simp
  | cons n l ih =>
    rw [List.foldl_cons, ih]
    by_cases hm : u.rowMajor j₀ ∈ l
    · rw [if_pos hm, if_pos (List.mem_cons_of_mem _ hm)]
    · rw [if_neg hm]
      by_cases hn : u.rowMajor j₀ = n
      · subst hn
        rw [if_pos List.mem_cons_self]
        simp only [Equiv.symm_apply_apply, h₀, if_true]
      · rw [if_neg (by simp [hn, hm])]
        generalize hres : d.resultIdx? (u.rowMajor.symm n) idx = o
        cases o with
        | none => rfl
        | some i' =>
          have hne : i ≠ i' := by
            intro hii
            subst hii
            have := huniq _ hres
            exact hn (by rw [← this, Equiv.apply_symm_apply])
          show (if i = i' then _ else r i) = r i
          rw [if_neg hne]

/-- A scatter whose body returns the update, read at an element that update j₀ lands on and no other update does:
    the value of update j₀. -/
theorem scatter_set_apply_of_unique (d : ScatterDims s si u) (x : s.Idx → α) (idx : IVec si w) (upd : u.Idx → α)
    (j₀ : u.Idx) (i : s.Idx)
    (h₀ : d.resultIdx? j₀ idx = some i) (huniq : ∀ j, d.resultIdx? j idx = some i → j = j₀) :
    Host.scatter d (fun _ b => b) x idx upd i = upd j₀ := by
  unfold Host.scatter
  exact (foldl_set_apply d idx upd j₀ i h₀ huniq _ x).trans (if_pos (List.mem_finRange _))

/-- The fold of the scatter's step over ANY list of update numbers, read at an element NO update lands on: the
    accumulator's value there, whatever the body is. -/
theorem foldl_apply_of_not_hit (d : ScatterDims s si u) (f : α → α → α) (idx : IVec si w) (upd : u.Idx → α) (i : s.Idx)
    (hnone : ∀ j, d.resultIdx? j idx ≠ some i)
    (l : List (Fin u.numel)) (r : s.Idx → α) :
    l.foldl (fun r n =>
      match d.resultIdx? (u.rowMajor.symm n) idx with
      | some i => fun i' => if i' = i then f (r i) (upd (u.rowMajor.symm n)) else r i'
      | none => r) r i = r i := by
  induction l generalizing r with
  | nil => rfl
  | cons n l ih =>
    rw [List.foldl_cons, ih]
    generalize hres : d.resultIdx? (u.rowMajor.symm n) idx = o
    cases o with
    | none => rfl
    | some i' =>
      have hne : i ≠ i' := fun hii => hnone _ (hii ▸ hres)
      show (if i = i' then _ else r i) = r i
      rw [if_neg hne]

/-- A scatter, read at an element no update lands on: the operand's element. -/
theorem scatter_apply_of_not_hit (d : ScatterDims s si u) (f : α → α → α) (x : s.Idx → α) (idx : IVec si w)
    (upd : u.Idx → α) (i : s.Idx) (hnone : ∀ j, d.resultIdx? j idx ≠ some i) :
    Host.scatter d f x idx upd i = x i := by
  unfold Host.scatter
  exact foldl_apply_of_not_hit d f idx upd i hnone _ x

end General

/-! ## A one-column block written at column offset 0 -/

section Column
variable {α : Type} {K B : Nat}

/-- A [K, 1] block written into a [K, B] array: both axes of the block are window axes, no operand axis is
    inserted, and the one scatter index is the start on the column axis. -/
abbrev colDims (K B : Nat)
    (wf : ScatterDims.WF ⟨2, ![K, B]⟩ ⟨1, ![1]⟩ ⟨2, ![K, 1]⟩ [0, 1] [] [1] 0) :
    ScatterDims ⟨2, ![K, B]⟩ ⟨1, ![1]⟩ ⟨2, ![K, 1]⟩ where
  updateWindowDims := [0, 1]
  insertedWindowDims := []
  scatterDimsToOperandDims := [1]
  indexVectorDim := 0
  wf := wf

variable (wf : ScatterDims.WF ⟨2, ![K, B]⟩ ⟨1, ![1]⟩ ⟨2, ![K, 1]⟩ [0, 1] [] [1] 0)

/-- The row axis is not scattered: every window starts at row 0. -/
theorem col_start0 (idx : IVec ⟨1, ![1]⟩ 32) (j : (⟨2, ![K, 1]⟩ : Shape).Idx) :
    (colDims K B wf).start j idx 0 = 0 := by
  unfold ScatterDims.start
  rw [dif_neg (show (0 : Fin 2) ∉ (colDims K B wf).scatterDimsToOperandDims from
    (by decide : (0 : Fin 2) ∉ ([1] : List (Fin 2))))]

/-- The column start is the one scatter index, read signed: 0 when that index is 0. -/
theorem col_start1 (idx : IVec ⟨1, ![1]⟩ 32) (q : (⟨1, ![1]⟩ : Shape).Idx) (hidx : idx q = 0#32)
    (j : (⟨2, ![K, 1]⟩ : Shape).Idx) :
    (colDims K B wf).start j idx 1 = 0 := by
  unfold ScatterDims.start
  rw [dif_pos (show (1 : Fin 2) ∈ (colDims K B wf).scatterDimsToOperandDims from List.mem_singleton.mpr rfl)]
  have hsi : (colDims K B wf).siIdx j ⟨List.idxOf (1 : Fin 2) (colDims K B wf).scatterDimsToOperandDims,
      List.idxOf_lt_length_iff.2 (List.mem_singleton.mpr rfl)⟩ = q := by
    funext b; refine Fin.ext ?_
    match b with
    | ⟨0, _⟩ =>
      have h1 : (q ⟨0, Nat.one_pos⟩).val < 1 := (q ⟨0, Nat.one_pos⟩).isLt
      have h2 : ((colDims K B wf).siIdx j ⟨List.idxOf (1 : Fin 2) (colDims K B wf).scatterDimsToOperandDims,
        List.idxOf_lt_length_iff.2 (List.mem_singleton.mpr rfl)⟩ ⟨0, Nat.one_pos⟩).val < 1 := Fin.isLt _
      omega
  rw [hsi, hidx]
  rfl

/-- The window coordinate on the row axis is the update's row. -/
theorem col_window0 (j : (⟨2, ![K, 1]⟩ : Shape).Idx) : (colDims K B wf).window j 0 = (j 0).val := by
  unfold ScatterDims.window
  rw [dif_pos (show (0 : Fin 2) ∈ (colDims K B wf).sKept from
    (by decide : (0 : Fin 2) ∈ (List.finRange 2).filter (· ∉ ([] : List (Fin 2)))))]
  rfl

/-- The window coordinate on the column axis is the update's column, which is 0. -/
theorem col_window1 (j : (⟨2, ![K, 1]⟩ : Shape).Idx) : (colDims K B wf).window j 1 = 0 := by
  unfold ScatterDims.window
  rw [dif_pos (show (1 : Fin 2) ∈ (colDims K B wf).sKept from
    (by decide : (1 : Fin 2) ∈ (List.finRange 2).filter (· ∉ ([] : List (Fin 2)))))]
  have h1 : (j 1).val < 1 := (j 1).isLt
  show (j 1).val = 0
  omega

/-- Every update of the block lands, at its own row and column 0. -/
theorem col_resultIdx (hB : 0 < B) (idx : IVec ⟨1, ![1]⟩ 32) (q : (⟨1, ![1]⟩ : Shape).Idx) (hidx : idx q = 0#32)
    (j : (⟨2, ![K, 1]⟩ : Shape).Idx) :
    (colDims K B wf).resultIdx? j idx = some (ix2 (j 0) (⟨0, hB⟩ : Fin B)) := by
  have hj0 : (j 0).val < K := (j 0).isLt
  have e0 : (colDims K B wf).start j idx 0 + ((colDims K B wf).window j 0 : Int) = ((j 0).val : Int) := by
    rw [col_start0, col_window0, zero_add]
  have e1 : (colDims K B wf).start j idx 1 + ((colDims K B wf).window j 1 : Int) = 0 := by
    rw [col_start1 wf idx q hidx, col_window1]; rfl
  unfold ScatterDims.resultIdx?
  have hin : ∀ a, 0 ≤ (colDims K B wf).start j idx a + ((colDims K B wf).window j a : Int) ∧
      (colDims K B wf).start j idx a + ((colDims K B wf).window j a : Int) < ((⟨2, ![K, B]⟩ : Shape).size a : Int) := by
    intro a
    match a with
    | ⟨0, _⟩ =>
      show 0 ≤ (colDims K B wf).start j idx 0 + ((colDims K B wf).window j 0 : Int) ∧
        (colDims K B wf).start j idx 0 + ((colDims K B wf).window j 0 : Int) < (K : Int)
      rw [e0]; omega
    | ⟨1, _⟩ =>
      show 0 ≤ (colDims K B wf).start j idx 1 + ((colDims K B wf).window j 1 : Int) ∧
        (colDims K B wf).start j idx 1 + ((colDims K B wf).window j 1 : Int) < (B : Int)
      rw [e1]; omega
  rw [dif_pos hin]
  congr 1
  funext a
  refine Fin.ext ?_
  match a with
  | ⟨0, _⟩ =>
    show ((colDims K B wf).start j idx 0 + ((colDims K B wf).window j 0 : Int)).toNat = (j 0).val
    rw [e0]; exact Int.toNat_natCast _
  | ⟨1, _⟩ =>
    show ((colDims K B wf).start j idx 1 + ((colDims K B wf).window j 1 : Int)).toNat = 0
    rw [e1]; rfl

/-- Update (k, 0) lands on element (k, 0). -/
theorem col_lands (hB : 0 < B) (idx : IVec ⟨1, ![1]⟩ 32) (q : (⟨1, ![1]⟩ : Shape).Idx) (hidx : idx q = 0#32)
    (k : Fin K) :
    (colDims K B wf).resultIdx? (ix2 k (0 : Fin 1)) idx = some (ix2 k (⟨0, hB⟩ : Fin B)) :=
  col_resultIdx wf hB idx q hidx (ix2 k (0 : Fin 1))

/-- The written array at column 0 holds the block: element (k, 0) is update (k, 0). -/
theorem scatter_set_col_apply (hB : 0 < B) (x : (⟨2, ![K, B]⟩ : Shape).Idx → α) (idx : IVec ⟨1, ![1]⟩ 32)
    (q : (⟨1, ![1]⟩ : Shape).Idx) (hidx : idx q = 0#32) (upd : (⟨2, ![K, 1]⟩ : Shape).Idx → α) (k : Fin K) :
    Host.scatter (colDims K B wf) (fun _ b => b) x idx upd (ix2 k (⟨0, hB⟩ : Fin B)) = upd (ix2 k (0 : Fin 1)) := by
  refine scatter_set_apply_of_unique _ x idx upd (ix2 k (0 : Fin 1)) _ (col_lands wf hB idx q hidx k) ?_
  intro j hj
  rw [col_resultIdx wf hB idx q hidx j] at hj
  have h0 : j 0 = k := congrArg (fun g => g 0) (Option.some.inj hj)
  rw [eq_ix2 j, h0]
  congr 1
  exact Subsingleton.elim (α := Fin 1) _ _

/-- The written array away from column 0 holds the operand: no update lands there. -/
theorem scatter_col_apply_of_ne (hB : 0 < B) (f : α → α → α) (x : (⟨2, ![K, B]⟩ : Shape).Idx → α)
    (idx : IVec ⟨1, ![1]⟩ 32) (q : (⟨1, ![1]⟩ : Shape).Idx) (hidx : idx q = 0#32)
    (upd : (⟨2, ![K, 1]⟩ : Shape).Idx → α) (k : Fin K) (c : Fin B) (hc : c.val ≠ 0) :
    Host.scatter (colDims K B wf) f x idx upd (ix2 k c) = x (ix2 k c) := by
  refine scatter_apply_of_not_hit _ f x idx upd _ ?_
  intro j hj
  rw [col_resultIdx wf hB idx q hidx j] at hj
  have h1 : (⟨0, hB⟩ : Fin B) = c := congrArg (fun g => g 1) (Option.some.inj hj)
  exact hc (by rw [← h1])

/-! ### The same for any record with these four lists -/

/-- A record of these shapes whose four lists are the ones above IS the record above. -/
theorem eq_colDims (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0) :
    ∃ wf, d = colDims K B wf := by
  obtain ⟨uw, iw, sd, iv, wf⟩ := d
  simp only at huw hiw hsd hiv
  subst huw hiw hsd hiv
  exact ⟨wf, rfl⟩

/-- Update (k, 0) lands on element (k, 0). -/
theorem col_lands_of_fields (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0)
    (hB : 0 < B) (idx : IVec ⟨1, ![1]⟩ 32) (q : (⟨1, ![1]⟩ : Shape).Idx) (hidx : idx q = 0#32) (k : Fin K) :
    d.resultIdx? (ix2 k (0 : Fin 1)) idx = some (ix2 k (⟨0, hB⟩ : Fin B)) := by
  obtain ⟨wf, rfl⟩ := eq_colDims d huw hiw hsd hiv
  exact col_lands wf hB idx q hidx k

/-- The written array at column 0 holds the block: element (k, 0) is update (k, 0). -/
theorem scatter_set_col_apply_of_fields (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0)
    (hB : 0 < B) (x : (⟨2, ![K, B]⟩ : Shape).Idx → α) (idx : IVec ⟨1, ![1]⟩ 32)
    (q : (⟨1, ![1]⟩ : Shape).Idx) (hidx : idx q = 0#32) (upd : (⟨2, ![K, 1]⟩ : Shape).Idx → α) (k : Fin K) :
    Host.scatter d (fun _ b => b) x idx upd (ix2 k (⟨0, hB⟩ : Fin B)) = upd (ix2 k (0 : Fin 1)) := by
  obtain ⟨wf, rfl⟩ := eq_colDims d huw hiw hsd hiv
  exact scatter_set_col_apply wf hB x idx q hidx upd k

/-- The written array away from column 0 holds the operand. -/
theorem scatter_col_apply_of_ne_of_fields (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0)
    (hB : 0 < B) (f : α → α → α) (x : (⟨2, ![K, B]⟩ : Shape).Idx → α)
    (idx : IVec ⟨1, ![1]⟩ 32) (q : (⟨1, ![1]⟩ : Shape).Idx) (hidx : idx q = 0#32)
    (upd : (⟨2, ![K, 1]⟩ : Shape).Idx → α) (k : Fin K) (c : Fin B) (hc : c.val ≠ 0) :
    Host.scatter d f x idx upd (ix2 k c) = x (ix2 k c) := by
  obtain ⟨wf, rfl⟩ := eq_colDims d huw hiw hsd hiv
  exact scatter_col_apply_of_ne wf hB f x idx q hidx upd k c hc

end Column

end Cert.Lib.SetScatter
-- ==== Proof.Payload.lean ====
/-
  THE FIVE KERNEL BODIES' ARITHMETIC AS THE LAYER FUNCTIONS, at the ideal values.

  Each body computes one block of its layer from the blocks it loaded: on the extended reals a change of float
  format is the identity, a matrix product into the zero accumulator is the plain sum over the contracted index, a
  [5000, 1] column spread over 64 columns reads its row's entry, and a [1, n] row spread over 5000 rows reads its
  column's entry.  So

  * the scale-and-multiply bodies (launches 0 and 2) are scaleProd of the three loaded blocks,
  * the scale-and-bias body with the maximum (launch 1) is scaleBiasMax at the body's constant zero,
  * the scale-and-bias body (launch 3) is scaleBias,
  * the multiply-and-bias body (launch 4) is prodBias.
-/
import proofs.«143172_j2327872274540_1_alg».proof.Proof.Gen.KernelIdeal.Skeleton
import proofs.«143172_j2327872274540_1_alg».proof.Proof.Layers
import Idealize.ShloMosaic.Lib.ValueLayout

noncomputable section

open scoped BigOperators

namespace Cert.KernelIdeal.Payload

open Cert.KernelIdeal Cert.KernelIdeal.Gen Idealize.ShloMosaic Idealize.ShloMosaic.ValueIdx

/-- The body of launch 0: block rows scaled by the block's column, times the whole weight matrix. -/
theorem pay0 (x0 : Vec Ideal S5000x64 .f32) (x1 : Vec Ideal S5000x1 .f32) (x2 : Vec Ideal S64x64 .f32) :
    k0_pay1 (F := Ideal) x0 x1 x2 = Cert.Gcn.scaleProd (A := 5000) (K := 64) (B := 64) x0 x1 x2 := by
  funext j
  obtain ⟨p, q, rfl⟩ : ∃ (p : Fin 5000) (q : Fin 64), j = ix2 p q := ⟨j 0, j 1, eq_ix2 j⟩
  have e := Cert.Lib.PlainDot.eq_plain dot_S5000x64_S64x64_S5000x64_1_0_0_1_n_n rfl rfl rfl rfl rfl rfl
  rw [Cert.Gcn.scaleProd_apply]
  unfold k0_pay1
  show matmul (F := Ideal) dot_S5000x64_S64x64_S5000x64_1_0_0_1_n_n none _ _ _ (ix2 p q) = _
  rw [e]
  refine (Cert.Lib.PlainDot.matmul_zero_plain_apply none _ _ (ix2 p q)).trans ?_
  refine Finset.sum_congr rfl fun k _ => ?_
  show (x0 (ix2 p k) * broadcastTo S5000x64 (shapeCast S5000x1 x1 _) _ (ix2 p k)) * x2 (ix2 k q) = _
  rw [Cert.LibKeepdims.broadcastTo_a1_ab_apply, shapeCast_self]

/-- The body of launch 2: the same arithmetic as launch 0's. -/
theorem pay2 (x0 : Vec Ideal S5000x64 .f32) (x1 : Vec Ideal S5000x1 .f32) (x2 : Vec Ideal S64x64 .f32) :
    k2_pay1 (F := Ideal) x0 x1 x2 = Cert.Gcn.scaleProd (A := 5000) (K := 64) (B := 64) x0 x1 x2 := by
  funext j
  obtain ⟨p, q, rfl⟩ : ∃ (p : Fin 5000) (q : Fin 64), j = ix2 p q := ⟨j 0, j 1, eq_ix2 j⟩
  have e := Cert.Lib.PlainDot.eq_plain dot_S5000x64_S64x64_S5000x64_1_0_0_1_n_n rfl rfl rfl rfl rfl rfl
  rw [Cert.Gcn.scaleProd_apply]
  unfold k2_pay1
  show matmul (F := Ideal) dot_S5000x64_S64x64_S5000x64_1_0_0_1_n_n none _ _ _ (ix2 p q) = _
  rw [e]
  refine (Cert.Lib.PlainDot.matmul_zero_plain_apply none _ _ (ix2 p q)).trans ?_
  refine Finset.sum_congr rfl fun k _ => ?_
  show (shapeCast S5000x64 x0 _ (ix2 p k) * broadcastTo S5000x64 (shapeCast S5000x1 x1 _) _ (ix2 p k)) * x2 (ix2 k q) = _
  rw [shapeCast_self, Cert.LibKeepdims.broadcastTo_a1_ab_apply, shapeCast_self]

/-- The body of launch 1: block rows scaled by the block's column, the bias row added, the maximum with the body's
    constant. -/
theorem pay1 (x0 : Vec Ideal S5000x64 .f32) (x1 : Vec Ideal S5000x1 .f32) (x2 : Vec Ideal S1x64 .f32) :
    k1_pay1 (F := Ideal) x0 x1 x2
      = Cert.Gcn.scaleBiasMax (A := 5000) (K := 64) x0 x1 x2 (FloatOps.ofBits (F := Ideal) .f32 0x00000000#32) := by
  funext j
  obtain ⟨p, q, rfl⟩ : ∃ (p : Fin 5000) (q : Fin 64), j = ix2 p q := ⟨j 0, j 1, eq_ix2 j⟩
  unfold k1_pay1
  show max (shapeCast S5000x64 x0 _ (ix2 p q) * broadcastTo S5000x64 (shapeCast S5000x1 x1 _) _ (ix2 p q)
      + broadcastTo S5000x64 (shapeCast S1x64 x2 _) _ (ix2 p q)) _ = _
  rw [shapeCast_self, Cert.LibKeepdims.broadcastTo_a1_ab_apply, shapeCast_self, broadcastTo_1b_ab_apply, shapeCast_self]
  rfl

/-- The body of launch 3: block rows scaled by the block's column, the bias row added. -/
theorem pay3 (x0 : Vec Ideal S5000x64 .f32) (x1 : Vec Ideal S5000x1 .f32) (x2 : Vec Ideal S1x64 .f32) :
    k3_pay1 (F := Ideal) x0 x1 x2 = Cert.Gcn.scaleBias (A := 5000) (K := 64) x0 x1 x2 := by
  funext j
  obtain ⟨p, q, rfl⟩ : ∃ (p : Fin 5000) (q : Fin 64), j = ix2 p q := ⟨j 0, j 1, eq_ix2 j⟩
  unfold k3_pay1
  show shapeCast S5000x64 x0 _ (ix2 p q) * broadcastTo S5000x64 (shapeCast S5000x1 x1 _) _ (ix2 p q)
      + broadcastTo S5000x64 (shapeCast S1x64 x2 _) _ (ix2 p q) = _
  rw [shapeCast_self, Cert.LibKeepdims.broadcastTo_a1_ab_apply, shapeCast_self, broadcastTo_1b_ab_apply, shapeCast_self]
  rfl

/-- The body of launch 4: block rows times the padded weight matrix, the padded bias row added. -/
theorem pay4 (x0 : Vec Ideal S5000x64 .f32) (x1 : Vec Ideal S64x128 .f32) (x2 : Vec Ideal S1x128 .f32) :
    k4_pay1 (F := Ideal) x0 x1 x2 = Cert.Gcn.prodBias (A := 5000) (K := 64) (B := 128) x0 x1 x2 := by
  funext j
  obtain ⟨p, q, rfl⟩ : ∃ (p : Fin 5000) (q : Fin 128), j = ix2 p q := ⟨j 0, j 1, eq_ix2 j⟩
  have e := Cert.Lib.PlainDot.eq_plain dot_S5000x64_S64x128_S5000x128_1_0_0_1_n_n rfl rfl rfl rfl rfl rfl
  rw [Cert.Gcn.prodBias_apply]
  unfold k4_pay1
  show matmul (F := Ideal) dot_S5000x64_S64x128_S5000x128_1_0_0_1_n_n none _ _ _ (ix2 p q)
      + broadcastTo S5000x128 (shapeCast S1x128 x2 _) _ (ix2 p q) = _
  rw [e, broadcastTo_1b_ab_apply]
  simp only [shapeCast_self]
  refine congrArg (· + x2 (ix2 (0 : Fin 1) q)) ?_
  refine (Cert.Lib.PlainDot.matmul_zero_plain_apply none _ _ (ix2 p q)).trans ?_
  exact Finset.sum_congr rfl fun k _ => rfl

end Cert.KernelIdeal.Payload

end
-- ==== Proof.Region0.lean ====
/-
  LAUNCH 0's OUTPUT ARRAY AS ONE FUNCTION OF THE ARRAYS THE LAUNCH FINDS.

  The launch tiles the 100000 rows into 20 blocks of 5000.  At grid point t it loads rows 5000 t … 5000 t + 4999 of the
  feature array and of the scaling column, and the whole weight matrix, and writes back rows 5000 t … 5000 t + 4999 of
  the result.  The body computes scaleProd of the loaded blocks; scaleProd of row r depends on row r of its first two
  operands only, so what point t writes back is block t of scaleProd of the WHOLE arrays.  Row r lies in the block
  of point r / 5000, so the blocks cover the array, and the array ends as scaleProd of the arrays the launch found.
  This holds whatever those arrays are: it is stated at a parameter V, the buffer contents at the launch's entry.
-/
import proofs.«143172_j2327872274540_1_alg».proof.Proof.Gen.KernelIdeal.Frame
import proofs.«143172_j2327872274540_1_alg».proof.Proof.Payload

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the weight window at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of scaleProd of the arrays the launch found. -/
theorem flushed_eq (c : Dev nD) (t : Fin cfg0.N) :
    (dat0 V c).flushed 3 t = ((cfg0.win 3).blk t).view.read (Elt Ideal)
      (Cert.Gcn.scaleProd (A := 100000) (K := 64) (B := 64) (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S5000x64) hz, View.ld_unit_zero (S := S5000x1) hz, View.ld_unit_zero (S := S64x64) hz]
  rw [Cert.KernelIdeal.Payload.pay0]
  obtain ⟨e00, e01, e10, e11, e20, e21, e30, e31⟩ := idx_facts t
  have hN : t.val < 20 := lt_of_lt_of_eq t.isLt N_0
  funext y
  obtain ⟨p, q, rfl⟩ : ∃ (p : Fin 5000) (q : Fin 64), y = ix2 p q := ⟨y 0, y 1, eq_ix2 y⟩
  have hp := p.isLt
  have hq := q.isLt
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show Cert.Gcn.scaleProd (iblk0 V c 0 t) (iblk0 V c 1 t) (iblk0 V c 2 t) (ix2 p q)
    = Cert.Gcn.scaleProd (V c main_arg0) (V c main_v13) (V c main_arg3) (((cfg0.win 3).blk t).view.emb (ix2 p q))
  rw [hemb, Cert.Gcn.scaleProd_apply, Cert.Gcn.scaleProd_apply]
  refine Finset.sum_congr rfl fun k _ => ?_
  have hk := k.isLt
  have h0 : iblk0 V c 0 t (ix2 p k) = V c main_arg0 (ix2 (⟨t.val * 5000 + p.val, by omega⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : iblk0 V c 1 t (ix2 p (0 : Fin 1)) = V c main_v13 (ix2 (⟨t.val * 5000 + p.val, by omega⟩ : Fin 100000) (0 : Fin 1)) := by
    show V c main_v13 (((cfg0.win 1).blk t).view.emb (ix2 p (0 : Fin 1))) = _
    refine congrArg (V c main_v13) (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  have h2 : iblk0 V c 2 t (ix2 k q) = V c main_arg3 (ix2 k q) := by
    show V c main_arg3 (((cfg0.win 2).blk t).view.emb (ix2 k q)) = _
    refine congrArg (V c main_arg3) (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  rw [h0, h1, h2]

/-- An index of the array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every index of the array lies in the block of some point: row r in the block of point r / 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e00, e01, e10, e11, e20, e21, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the launch: scaleProd of the arrays the launch found. -/
theorem value (c : Dev nD) :
    (dat0 V c).arrAt 3 cfg0.N
      = Cert.Gcn.scaleProd (A := 100000) (K := 64) (B := 64) (V c main_arg0) (V c main_v13) (V c main_arg3) :=
  (dat0 V c).arrAt_eq_of_cover 3 _ (fun t _ => flushed_eq V c t) (cover)

end Cert.KernelIdeal.Region0

end
-- ==== Proof.Region1.lean ====
/-
  LAUNCH 1's OUTPUT ARRAY AS ONE FUNCTION OF THE ARRAYS THE LAUNCH FINDS.

  The launch tiles the 100000 rows into 20 blocks of 5000.  At grid point t it loads rows 5000 t … 5000 t + 4999 of the
  aggregated array and of the scaling column, and the whole [1, 64] bias row, and writes back rows 5000 t … 5000 t + 4999
  of the result.  The body computes scaleBiasMax at the body's constant zero of the loaded blocks; its value at (r, c) depends on entry (r, c) of the first
  operand, entry r of the column and entry c of the row only, so what point t writes back is block t of the same
  function of the WHOLE arrays.  Row r lies in the block of point r / 5000, so the blocks cover the array.
  Stated at a parameter V, the buffer contents at the launch's entry.
-/
import proofs.«143172_j2327872274540_1_alg».proof.Proof.Gen.KernelIdeal.Frame
import proofs.«143172_j2327872274540_1_alg».proof.Proof.Payload

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the bias window at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer function of the arrays the launch found. -/
theorem flushed_eq (c : Dev nD) (t : Fin cfg1.N) :
    (dat1 V c).flushed 3 t = ((cfg1.win 3).blk t).view.read (Elt Ideal)
      (Cert.Gcn.scaleBiasMax (A := 100000) (K := 64) (V c main_v26) (V c main_v15) (V c main_v27) (FloatOps.ofBits (F := Ideal) .f32 0x00000000#32)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  rw [Cert.KernelIdeal.Payload.pay1]
  obtain ⟨e00, e01, e10, e11, e20, e21, e30, e31⟩ := idx_facts t
  have hN : t.val < 20 := lt_of_lt_of_eq t.isLt N_1
  funext y
  obtain ⟨p, q, rfl⟩ : ∃ (p : Fin 5000) (q : Fin 64), y = ix2 p q := ⟨y 0, y 1, eq_ix2 y⟩
  have hp := p.isLt
  have hq := q.isLt
  have hemb : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  have h0 : iblk1 V c 0 t (ix2 p q) = V c main_v26 (ix2 (⟨t.val * 5000 + p.val, by omega⟩ : Fin 100000) q) := by
    show V c main_v26 (((cfg1.win 0).blk t).view.emb (ix2 p q)) = _
    refine congrArg (V c main_v26) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : iblk1 V c 1 t (ix2 p (0 : Fin 1)) = V c main_v15 (ix2 (⟨t.val * 5000 + p.val, by omega⟩ : Fin 100000) (0 : Fin 1)) := by
    show V c main_v15 (((cfg1.win 1).blk t).view.emb (ix2 p (0 : Fin 1))) = _
    refine congrArg (V c main_v15) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : iblk1 V c 2 t (ix2 (0 : Fin 1) q) = V c main_v27 (ix2 (0 : Fin 1) q) := by
    show V c main_v27 (((cfg1.win 2).blk t).view.emb (ix2 (0 : Fin 1) q)) = _
    refine congrArg (V c main_v27) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  show Cert.Gcn.scaleBiasMax (iblk1 V c 0 t) (iblk1 V c 1 t) (iblk1 V c 2 t) (FloatOps.ofBits (F := Ideal) .f32 0x00000000#32) (ix2 p q)
    = Cert.Gcn.scaleBiasMax (V c main_v26) (V c main_v15) (V c main_v27) (FloatOps.ofBits (F := Ideal) .f32 0x00000000#32) (((cfg1.win 3).blk t).view.emb (ix2 p q))
  rw [hemb, Cert.Gcn.scaleBiasMax_apply, Cert.Gcn.scaleBiasMax_apply, h0, h1, h2]

/-- An index of the array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v28).slice (win1_3.rect t)).set ↔ _
  rw [View.set_slice_whole, Rect.mem_set_unit]
  exact Iff.rfl

/-- Every index of the array lies in the block of some point: row r in the block of point r / 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e00, e01, e10, e11, e20, e21, e30, e31⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the launch: the layer function of the arrays the launch found. -/
theorem value (c : Dev nD) :
    (dat1 V c).arrAt 3 cfg1.N
      = Cert.Gcn.scaleBiasMax (A := 100000) (K := 64) (V c main_v26) (V c main_v15) (V c main_v27) (FloatOps.ofBits (F := Ideal) .f32 0x00000000#32) :=
  (dat1 V c).arrAt_eq_of_cover 3 _ (fun t _ => flushed_eq V c t) (cover)

end Cert.KernelIdeal.Region1

end
-- ==== Proof.Region2.lean ====
/-
  LAUNCH 2's OUTPUT ARRAY AS ONE FUNCTION OF THE ARRAYS THE LAUNCH FINDS.

  The launch tiles the 100000 rows into 20 blocks of 5000.  At grid point t it loads rows 5000 t … 5000 t + 4999 of the
  feature array and of the scaling column, and the whole weight matrix, and writes back rows 5000 t … 5000 t + 4999 of
  the result.  The body computes scaleProd of the loaded blocks; scaleProd of row r depends on row r of its first two
  operands only, so what point t writes back is block t of scaleProd of the WHOLE arrays.  Row r lies in the block
  of point r / 5000, so the blocks cover the array, and the array ends as scaleProd of the arrays the launch found.
  This holds whatever those arrays are: it is stated at a parameter V, the buffer contents at the launch's entry.
-/
import proofs.«143172_j2327872274540_1_alg».proof.Proof.Gen.KernelIdeal.Frame
import proofs.«143172_j2327872274540_1_alg».proof.Proof.Payload

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the weight window at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of scaleProd of the arrays the launch found. -/
theorem flushed_eq (c : Dev nD) (t : Fin cfg2.N) :
    (dat2 V c).flushed 3 t = ((cfg2.win 3).blk t).view.read (Elt Ideal)
      (Cert.Gcn.scaleProd (A := 100000) (K := 64) (B := 64) (V c main_v28) (V c main_v13) (V c main_arg5)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S64x64) hz]
  rw [Cert.KernelIdeal.Payload.pay2]
  obtain ⟨e00, e01, e10, e11, e20, e21, e30, e31⟩ := idx_facts t
  have hN : t.val < 20 := lt_of_lt_of_eq t.isLt N_2
  funext y
  obtain ⟨p, q, rfl⟩ : ∃ (p : Fin 5000) (q : Fin 64), y = ix2 p q := ⟨y 0, y 1, eq_ix2 y⟩
  have hp := p.isLt
  have hq := q.isLt
  have hemb : ((cfg2.win 3).blk t).view.emb (ix2 p q) = ix2 (⟨t.val * 5000 + p.val, by omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  show Cert.Gcn.scaleProd (iblk2 V c 0 t) (iblk2 V c 1 t) (iblk2 V c 2 t) (ix2 p q)
    = Cert.Gcn.scaleProd (V c main_v28) (V c main_v13) (V c main_arg5) (((cfg2.win 3).blk t).view.emb (ix2 p q))
  rw [hemb, Cert.Gcn.scaleProd_apply, Cert.Gcn.scaleProd_apply]
  refine Finset.sum_congr rfl fun k _ => ?_
  have hk := k.isLt
  have h0 : iblk2 V c 0 t (ix2 p k) = V c main_v28 (ix2 (⟨t.val * 5000 + p.val, by omega⟩ : Fin 100000) k) := by
    show V c main_v28 (((cfg2.win 0).blk t).view.emb (ix2 p k)) = _
    refine congrArg (V c main_v28) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  have h1 : iblk2 V c 1 t (ix2 p (0 : Fin 1)) = V c main_v13 (ix2 (⟨t.val * 5000 + p.val, by omega⟩ : Fin 100000) (0 : Fin 1)) := by
    show V c main_v13 (((cfg2.win 1).blk t).view.emb (ix2 p (0 : Fin 1))) = _
    refine congrArg (V c main_v13) (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  have h2 : iblk2 V c 2 t (ix2 k q) = V c main_arg5 (ix2 k q) := by
    show V c main_arg5 (((cfg2.win 2).blk t).view.emb (ix2 k q)) = _
    refine congrArg (V c main_arg5) (funext fun a => Fin.ext ?_)
    match a with
    | ⟨0, _⟩ => show win2_2.index t (0 : Fin 2) * 64 + 1 * k.val = k.val; omega
    | ⟨1, _⟩ => show win2_2.index t (1 : Fin 2) * 64 + 1 * q.val = q.val; omega
  rw [h0, h1, h2]

/-- An index of the array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v29).slice (win2_3.rect t)).set ↔ _
  rw [View.set_slice_whole, Rect.mem_set_unit]
  exact Iff.rfl

/-- Every index of the array lies in the block of some point: row r in the block of point r / 5000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e00, e01, e10, e11, e20, e21, e30, e31⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the launch: scaleProd of the arrays the launch found. -/
theorem value (c : Dev nD) :
    (dat2 V c).arrAt 3 cfg2.N
      = Cert.Gcn.scaleProd (A := 100000) (K := 64) (B := 64) (V c main_v28) (V c main_v13) (V c main_arg5) :=
  (dat2 V c).arrAt_eq_of_cover 3 _ (fun t _ => flushed_eq V c t) (cover)

end Cert.KernelIdeal.Region2

end
-- ==== Proof.Region3.lean ====
/-
  LAUNCH 3's OUTPUT ARRAY AS ONE FUNCTION OF THE ARRAYS THE LAUNCH FINDS.

  The launch tiles the 100000 rows into 20 blocks of 5000.  At grid point t it loads rows 5000 t … 5000 t + 4999 of the
  aggregated array and of the scaling column, and the whole [1, 64] bias row, and writes back rows 5000 t … 5000 t + 4999
  of the result.  The body computes scaleBias of the loaded blocks; its value at (r, c) depends on entry (r, c) of the first
  operand, entry r of the column and entry c of the row only, so what point t writes back is block t of the same
  function of the WHOLE arrays.  Row r lies in the block of point r / 5000, so the blocks cover the array.
  Stated at a parameter V, the buffer contents at the launch's entry.
-/
import proofs.«143172_j2327872274540_1_alg».proof.Proof.Gen.KernelIdeal.Frame
import proofs.«143172_j2327872274540_1_alg».proof.Proof.Payload

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the bias window at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the layer function of the arrays the launch found. -/
theorem flushed_eq (c : Dev nD) (t : Fin cfg3.N) :
    (dat3 V c).flushed 3 t = ((cfg3.win 3).blk t).view.read (Elt Ideal)
      (Cert.Gcn.scaleBias (A := 100000) (K := 64) (V c main_v39) (V c main_v15) (V c main_v40)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  rw [Cert.KernelIdeal.Payload.pay3]
  obtain ⟨e00, e01, e10, e11, e20, e21, e30, e31⟩ := idx_facts t
  have hN : t.val < 20 := lt_of_lt_of_eq t.isLt N_3
  funext y
  obtain ⟨p, q, rfl⟩ : ∃ (p : Fin 5000) (q : Fin 64), y = ix2 p q := ⟨y 0, y 1, eq_ix2 y⟩
  have hp := p.isLt
  have hq := q.isLt
  have hemb : ((cfg3.win 3).blk t).view.emb (ix2 p q) = ix2 (⟨t.val * 5000 + p.val, by omega⟩ : Fin 100000) q := by
    funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  have h0 : iblk3 V c 0 t (ix2 p q) = V c main_v39 (ix2 (⟨t.val * 5000 + p.val, by omega⟩ : Fin 100000) q) := by
    show V c main_v39 (((cfg3.win 0).blk t).view.emb (ix2 p q)) = _
    refine congrArg (V c main_v39) (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * q.val = q.val; omega
  have h1 : iblk3 V c 1 t (ix2 p (0 : Fin 1)) = V c main_v15 (ix2 (⟨t.val * 5000 + p.val, by omega⟩ : Fin 100000) (0 : Fin 1)) := by
    show V c main_v15 (((cfg3.win 1).blk t).view.emb (ix2 p (0 : Fin 1))) = _
    refine congrArg (V c main_v15) (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  have h2 : iblk3 V c 2 t (ix2 (0 : Fin 1) q) = V c main_v40 (ix2 (0 : Fin 1) q) := by
    show V c main_v40 (((cfg3.win 2).blk t).view.emb (ix2 (0 : Fin 1) q)) = _
    refine congrArg (V c main_v40) (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  show Cert.Gcn.scaleBias (iblk3 V c 0 t) (iblk3 V c 1 t) (iblk3 V c 2 t) (ix2 p q)
    = Cert.Gcn.scaleBias (V c main_v39) (V c main_v15) (V c main_v40) (((cfg3.win 3).blk t).view.emb (ix2 p q))
  rw [hemb, Cert.Gcn.scaleBias_apply, Cert.Gcn.scaleBias_apply, h0, h1, h2]

/-- An index of the array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v41).slice (win3_3.rect t)).set ↔ _
  rw [View.set_slice_whole, Rect.mem_set_unit]
  exact Iff.rfl

/-- Every index of the array lies in the block of some point: row r in the block of point r / 5000. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e00, e01, e10, e11, e20, e21, e30, e31⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the launch: the layer function of the arrays the launch found. -/
theorem value (c : Dev nD) :
    (dat3 V c).arrAt 3 cfg3.N
      = Cert.Gcn.scaleBias (A := 100000) (K := 64) (V c main_v39) (V c main_v15) (V c main_v40) :=
  (dat3 V c).arrAt_eq_of_cover 3 _ (fun t _ => flushed_eq V c t) (cover)

end Cert.KernelIdeal.Region3

end
-- ==== Proof.Region4.lean ====
/-
  LAUNCH 4's OUTPUT ARRAY AS ONE FUNCTION OF THE ARRAYS THE LAUNCH FINDS.

  The launch tiles the 100000 rows into 20 blocks of 5000.  At grid point t it loads rows 5000 t … 5000 t + 4999 of the
  second layer's array, the whole [64, 128] weight matrix and the whole [1, 128] bias row, and writes back rows
  5000 t … 5000 t + 4999 of the [100000, 128] result.  The body computes prodBias of the loaded blocks; prodBias at
  row r depends on row r of its first operand only, so what point t writes back is block t of prodBias of the WHOLE
  arrays.  Row r lies in the block of point r / 5000, so the blocks cover the array.
  Stated at a parameter V, the buffer contents at the launch's entry.
-/
import proofs.«143172_j2327872274540_1_alg».proof.Proof.Gen.KernelIdeal.Frame
import proofs.«143172_j2327872274540_1_alg».proof.Proof.Payload

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the weight and bias windows at
    (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of prodBias of the arrays the launch found. -/
theorem flushed_eq (c : Dev nD) (t : Fin cfg4.N) :
    (dat4 V c).flushed 3 t = ((cfg4.win 3).blk t).view.read (Elt Ideal)
      (Cert.Gcn.prodBias (A := 100000) (K := 64) (B := 128) (V c main_v41) (V c main_v44) (V c main_v48)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x128) hz, View.ld_unit_zero (S := S1x128) hz]
  rw [Cert.KernelIdeal.Payload.pay4]
  obtain ⟨e00, e01, e10, e11, e20, e21, e30, e31⟩ := idx_facts t
  have hN : t.val < 20 := lt_of_lt_of_eq t.isLt N_4
  funext y
  obtain ⟨p, q, rfl⟩ : ∃ (p : Fin 5000) (q : Fin 128), y = ix2 p q := ⟨y 0, y 1, eq_ix2 y⟩
  have hp := p.isLt
  have hq := q.isLt
  have hemb : ((cfg4.win 3).blk t).view.emb (ix2 p q) = ix2 (⟨t.val * 5000 + p.val, by omega⟩ : Fin 100000) q := by
    funext a; apply Fin.ext
    match a with
    | ⟨0, _⟩ => show win4_3.index t (0 : Fin 2) * 5000 + 1 * p.val = t.val * 5000 + p.val; omega
    | ⟨1, _⟩ => show win4_3.index t (1 : Fin 2) * 128 + 1 * q.val = q.val; omega
  have h2 : iblk4 V c 2 t (ix2 (0 : Fin 1) q) = V c main_v48 (ix2 (0 : Fin 1) q) := by
    show V c main_v48 (((cfg4.win 2).blk t).view.emb (ix2 (0 : Fin 1) q)) = _
    refine congrArg (V c main_v48) (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega
  show Cert.Gcn.prodBias (iblk4 V c 0 t) (iblk4 V c 1 t) (iblk4 V c 2 t) (ix2 p q)
    = Cert.Gcn.prodBias (V c main_v41) (V c main_v44) (V c main_v48) (((cfg4.win 3).blk t).view.emb (ix2 p q))
  rw [hemb, Cert.Gcn.prodBias_apply, Cert.Gcn.prodBias_apply, h2]
  refine congrArg (· + V c main_v48 (ix2 (0 : Fin 1) q)) ?_
  refine Finset.sum_congr rfl fun k _ => ?_
  have hk := k.isLt
  have h0 : iblk4 V c 0 t (ix2 p k) = V c main_v41 (ix2 (⟨t.val * 5000 + p.val, by omega⟩ : Fin 100000) k) := by
    show V c main_v41 (((cfg4.win 0).blk t).view.emb (ix2 p k)) = _
    refine congrArg (V c main_v41) (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  have h1 : iblk4 V c 1 t (ix2 k q) = V c main_v44 (ix2 k q) := by
    show V c main_v44 (((cfg4.win 1).blk t).view.emb (ix2 k q)) = _
    refine congrArg (V c main_v44) (funext fun a => Fin.ext ?_)
    match a with
    | ⟨0, _⟩ => show win4_1.index t (0 : Fin 2) * 64 + 1 * k.val = k.val; omega
    | ⟨1, _⟩ => show win4_1.index t (1 : Fin 2) * 128 + 1 * q.val = q.val; omega
  rw [h0, h1]

/-- An index of the array is in point t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v49).slice (win4_3.rect t)).set ↔ _
  rw [View.set_slice_whole, Rect.mem_set_unit]
  exact Iff.rfl

/-- Every index of the array lies in the block of some point: row r in the block of point r / 5000. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨e00, e01, e10, e11, e20, e21, e30, e31⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the launch: prodBias of the arrays the launch found. -/
theorem value (c : Dev nD) :
    (dat4 V c).arrAt 3 cfg4.N
      = Cert.Gcn.prodBias (A := 100000) (K := 64) (B := 128) (V c main_v41) (V c main_v44) (V c main_v48) :=
  (dat4 V c).arrAt_eq_of_cover 3 _ (fun t _ => flushed_eq V c t) (cover)

end Cert.KernelIdeal.Region4

end
-- ==== Proof.Fold.lean ====
/-
  THE IDEALIZED KERNEL'S RESULT, READ BACK THROUGH ITS SEGMENTS.

  The buffer contents at the fourteen segment boundaries are a fold from the launch memory.  Read in order:

  * before launch 0 the host computes the edge lists with the self loops, the clipped degrees and the two columns of
    inverse square roots; the buffers it writes hold the reference's own stage functions of the argument arrays
    (the same operations on the same literals; a value passed through a typed buffer reference and back is the value);
  * launch 0 leaves scaleProd of the features, the out-degree column and the first weights;
  * the host gathers its rows along the edges and adds them into the targets (the aggregation), and reshapes the bias;
  * launch 1 leaves the hidden layer; launch 2 its scaled product with the second weights; the host aggregates again;
    launch 3 leaves the second layer;
  * the host writes the regressor's weights into column 0 of a zero [64, 128] matrix and its bias into entry 0 of a
    zero [1, 128] row; launch 4 leaves prodBias of the second layer with those; the host keeps column 0.

  A launch changes only its own arrays and a host stretch only the buffers its operations write, so every buffer a
  later segment reads is found there with the value it was given.
-/
import proofs.«143172_j2327872274540_1_alg».proof.Proof.Gen.KernelIdeal.Frame
import proofs.«143172_j2327872274540_1_alg».proof.Proof.Stages
import proofs.«143172_j2327872274540_1_alg».proof.Proof.LibTypedRef
import proofs.«143172_j2327872274540_1_alg».proof.Proof.LibSetScatter
import Idealize.ShloMosaic.Lib.ValueLayout
import proofs.«143172_j2327872274540_1_alg».proof.Proof.Region0
import proofs.«143172_j2327872274540_1_alg».proof.Proof.Region1
import proofs.«143172_j2327872274540_1_alg».proof.Proof.Region2
import proofs.«143172_j2327872274540_1_alg».proof.Proof.Region3
import proofs.«143172_j2327872274540_1_alg».proof.Proof.Region4
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## A value written to, or read from, one of these buffers through a typed reference is the value itself -/

section Casts
variable {Val : EltTy → Type}
theorem toBuf_v7 (h1 : main_v7.ty = ⟨S100000, .f32⟩) (h2 : main_v7.space ≠ .host) (h3 : (main_v7 : Ref sig .tc).isScoped = false)
    (v : (⟨S100000, .f32⟩ : BufTy).Contents Val) : (TRef.of main_v7 h1 h2 h3).toBuf v = v := rfl
theorem ofBuf_v6 (h1 : main_v6.ty = ⟨S100000, .f32⟩) (h2 : main_v6.space ≠ .host) (h3 : (main_v6 : Ref sig .tc).isScoped = false)
    (v : (⟨S100000, .f32⟩ : BufTy).Contents Val) : (TRef.of main_v6 h1 h2 h3).ofBuf v = v := rfl
theorem ofBuf_cst_1 (h1 : main_cst_1.ty = ⟨S_, .f32⟩) (h2 : main_cst_1.space ≠ .host) (h3 : (main_cst_1 : Ref sig .tc).isScoped = false)
    (v : (⟨S_, .f32⟩ : BufTy).Contents Val) : (TRef.of main_cst_1 h1 h2 h3).ofBuf v = v := rfl
theorem toBuf_v11 (h1 : main_v11.ty = ⟨S100000, .f32⟩) (h2 : main_v11.space ≠ .host) (h3 : (main_v11 : Ref sig .tc).isScoped = false)
    (v : (⟨S100000, .f32⟩ : BufTy).Contents Val) : (TRef.of main_v11 h1 h2 h3).toBuf v = v := rfl
theorem ofBuf_v10 (h1 : main_v10.ty = ⟨S100000, .f32⟩) (h2 : main_v10.space ≠ .host) (h3 : (main_v10 : Ref sig .tc).isScoped = false)
    (v : (⟨S100000, .f32⟩ : BufTy).Contents Val) : (TRef.of main_v10 h1 h2 h3).ofBuf v = v := rfl
theorem ofBuf_cst_3 (h1 : main_cst_3.ty = ⟨S_, .f32⟩) (h2 : main_cst_3.space ≠ .host) (h3 : (main_cst_3 : Ref sig .tc).isScoped = false)
    (v : (⟨S_, .f32⟩ : BufTy).Contents Val) : (TRef.of main_cst_3 h1 h2 h3).ofBuf v = v := rfl
end Casts

/-! ## Before launch 0 -/

theorem W5_v1 (c : Dev nD) : W5 m ρ c (Proc.devRef .tc main_v1) = Cert.ReferenceIdeal.Read.val_main_v1 (F := Ideal) (m ((c : Thread nD τ).loc main_arg1)) := by
  show StableHlo.after hostOps0_4 (W4 m ρ c) (Proc.devRef .tc main_v1) = _
  after_results
  rfl
theorem W5_v2 (c : Dev nD) : W5 m ρ c (Proc.devRef .tc main_v2) = Cert.ReferenceIdeal.Read.val_main_v2 (F := Ideal) (m ((c : Thread nD τ).loc main_arg2)) := by
  show StableHlo.after hostOps0_4 (W4 m ρ c) (Proc.devRef .tc main_v2) = _
  after_results
  rfl
theorem W5_v13 (c : Dev nD) : W5 m ρ c (Proc.devRef .tc main_v13)
    = Cert.Gcn.Stages.colS shapeCasts_S100000_S100000x1 (m ((c : Thread nD τ).loc main_arg1)) := by
  show StableHlo.after hostOps0_4 (W4 m ρ c) (Proc.devRef .tc main_v13) = _
  after_results
  simp only [Cert.Lib.TypedRef.ofBuf_toBuf, toBuf_v7, ofBuf_v6, ofBuf_cst_1]
  rfl
theorem W5_v15 (c : Dev nD) : W5 m ρ c (Proc.devRef .tc main_v15)
    = Cert.Gcn.Stages.colT shapeCasts_S100000_S100000x1 (m ((c : Thread nD τ).loc main_arg2)) := by
  show StableHlo.after hostOps0_4 (W4 m ρ c) (Proc.devRef .tc main_v15) = _
  after_results
  simp only [Cert.Lib.TypedRef.ofBuf_toBuf, toBuf_v11, ofBuf_v10, ofBuf_cst_3]
  rfl
theorem W5_arg0 (c : Dev nD) : W5 m ρ c (Proc.devRef .tc main_arg0) = m ((c : Thread nD τ).loc main_arg0) := by
  show StableHlo.after hostOps0_4 (W4 m ρ c) (Proc.devRef .tc main_arg0) = _
  after_results
theorem W5_arg3 (c : Dev nD) : W5 m ρ c (Proc.devRef .tc main_arg3) = m ((c : Thread nD τ).loc main_arg3) := by
  show StableHlo.after hostOps0_4 (W4 m ρ c) (Proc.devRef .tc main_arg3) = _
  after_results
theorem W5_arg4 (c : Dev nD) : W5 m ρ c (Proc.devRef .tc main_arg4) = m ((c : Thread nD τ).loc main_arg4) := by
  show StableHlo.after hostOps0_4 (W4 m ρ c) (Proc.devRef .tc main_arg4) = _
  after_results
theorem W5_arg5 (c : Dev nD) : W5 m ρ c (Proc.devRef .tc main_arg5) = m ((c : Thread nD τ).loc main_arg5) := by
  show StableHlo.after hostOps0_4 (W4 m ρ c) (Proc.devRef .tc main_arg5) = _
  after_results
theorem W5_arg6 (c : Dev nD) : W5 m ρ c (Proc.devRef .tc main_arg6) = m ((c : Thread nD τ).loc main_arg6) := by
  show StableHlo.after hostOps0_4 (W4 m ρ c) (Proc.devRef .tc main_arg6) = _
  after_results
theorem W5_arg7 (c : Dev nD) : W5 m ρ c (Proc.devRef .tc main_arg7) = m ((c : Thread nD τ).loc main_arg7) := by
  show StableHlo.after hostOps0_4 (W4 m ρ c) (Proc.devRef .tc main_arg7) = _
  after_results
theorem W5_arg8 (c : Dev nD) : W5 m ρ c (Proc.devRef .tc main_arg8) = m ((c : Thread nD τ).loc main_arg8) := by
  show StableHlo.after hostOps0_4 (W4 m ρ c) (Proc.devRef .tc main_arg8) = _
  after_results

/-! ## A buffer no later segment writes keeps its value -/

theorem W6_v1 (c : Dev nD) : W6 m ρ c (Proc.devRef .tc main_v1) = Cert.ReferenceIdeal.Read.val_main_v1 (F := Ideal) (m ((c : Thread nD τ).loc main_arg1)) :=
  (W6_of_ne m ρ c main_v1 (by decide)).trans (W5_v1 m ρ c)
theorem W7_v1 (c : Dev nD) : W7 m ρ c (Proc.devRef .tc main_v1) = Cert.ReferenceIdeal.Read.val_main_v1 (F := Ideal) (m ((c : Thread nD τ).loc main_arg1)) := by
  show StableHlo.after hostOps1 (W6 m ρ c) (Proc.devRef .tc main_v1) = _
  after_results
  exact W6_v1 m ρ c
theorem W8_v1 (c : Dev nD) : W8 m ρ c (Proc.devRef .tc main_v1) = Cert.ReferenceIdeal.Read.val_main_v1 (F := Ideal) (m ((c : Thread nD τ).loc main_arg1)) :=
  (W8_of_ne m ρ c main_v1 (by decide)).trans (W7_v1 m ρ c)
theorem W9_v1 (c : Dev nD) : W9 m ρ c (Proc.devRef .tc main_v1) = Cert.ReferenceIdeal.Read.val_main_v1 (F := Ideal) (m ((c : Thread nD τ).loc main_arg1)) :=
  (W9_of_ne m ρ c main_v1 (by decide)).trans (W8_v1 m ρ c)
theorem W6_v2 (c : Dev nD) : W6 m ρ c (Proc.devRef .tc main_v2) = Cert.ReferenceIdeal.Read.val_main_v2 (F := Ideal) (m ((c : Thread nD τ).loc main_arg2)) :=
  (W6_of_ne m ρ c main_v2 (by decide)).trans (W5_v2 m ρ c)
theorem W7_v2 (c : Dev nD) : W7 m ρ c (Proc.devRef .tc main_v2) = Cert.ReferenceIdeal.Read.val_main_v2 (F := Ideal) (m ((c : Thread nD τ).loc main_arg2)) := by
  show StableHlo.after hostOps1 (W6 m ρ c) (Proc.devRef .tc main_v2) = _
  after_results
  exact W6_v2 m ρ c
theorem W8_v2 (c : Dev nD) : W8 m ρ c (Proc.devRef .tc main_v2) = Cert.ReferenceIdeal.Read.val_main_v2 (F := Ideal) (m ((c : Thread nD τ).loc main_arg2)) :=
  (W8_of_ne m ρ c main_v2 (by decide)).trans (W7_v2 m ρ c)
theorem W9_v2 (c : Dev nD) : W9 m ρ c (Proc.devRef .tc main_v2) = Cert.ReferenceIdeal.Read.val_main_v2 (F := Ideal) (m ((c : Thread nD τ).loc main_arg2)) :=
  (W9_of_ne m ρ c main_v2 (by decide)).trans (W8_v2 m ρ c)
theorem W6_v13 (c : Dev nD) : W6 m ρ c (Proc.devRef .tc main_v13) = Cert.Gcn.Stages.colS shapeCasts_S100000_S100000x1 (m ((c : Thread nD τ).loc main_arg1)) :=
  (W6_arr m ρ c 1).trans ((((dat0 (V5 m ρ) c).arrAt_in 1 rfl _).trans (A_eq0 (V5 m ρ) c 1)).trans (W5_v13 m ρ c))
theorem W7_v13 (c : Dev nD) : W7 m ρ c (Proc.devRef .tc main_v13) = Cert.Gcn.Stages.colS shapeCasts_S100000_S100000x1 (m ((c : Thread nD τ).loc main_arg1)) := by
  show StableHlo.after hostOps1 (W6 m ρ c) (Proc.devRef .tc main_v13) = _
  after_results
  exact W6_v13 m ρ c
theorem W8_v13 (c : Dev nD) : W8 m ρ c (Proc.devRef .tc main_v13) = Cert.Gcn.Stages.colS shapeCasts_S100000_S100000x1 (m ((c : Thread nD τ).loc main_arg1)) :=
  (W8_of_ne m ρ c main_v13 (by decide)).trans (W7_v13 m ρ c)
theorem W6_v15 (c : Dev nD) : W6 m ρ c (Proc.devRef .tc main_v15) = Cert.Gcn.Stages.colT shapeCasts_S100000_S100000x1 (m ((c : Thread nD τ).loc main_arg2)) :=
  (W6_of_ne m ρ c main_v15 (by decide)).trans (W5_v15 m ρ c)
theorem W7_v15 (c : Dev nD) : W7 m ρ c (Proc.devRef .tc main_v15) = Cert.Gcn.Stages.colT shapeCasts_S100000_S100000x1 (m ((c : Thread nD τ).loc main_arg2)) := by
  show StableHlo.after hostOps1 (W6 m ρ c) (Proc.devRef .tc main_v15) = _
  after_results
  exact W6_v15 m ρ c
theorem W8_v15 (c : Dev nD) : W8 m ρ c (Proc.devRef .tc main_v15) = Cert.Gcn.Stages.colT shapeCasts_S100000_S100000x1 (m ((c : Thread nD τ).loc main_arg2)) :=
  (W8_arr m ρ c 1).trans ((((dat1 (V7 m ρ) c).arrAt_in 1 rfl _).trans (A_eq1 (V7 m ρ) c 1)).trans (W7_v15 m ρ c))
theorem W9_v15 (c : Dev nD) : W9 m ρ c (Proc.devRef .tc main_v15) = Cert.Gcn.Stages.colT shapeCasts_S100000_S100000x1 (m ((c : Thread nD τ).loc main_arg2)) :=
  (W9_of_ne m ρ c main_v15 (by decide)).trans (W8_v15 m ρ c)
theorem W10_v15 (c : Dev nD) : W10 m ρ c (Proc.devRef .tc main_v15) = Cert.Gcn.Stages.colT shapeCasts_S100000_S100000x1 (m ((c : Thread nD τ).loc main_arg2)) := by
  show StableHlo.after hostOps3 (W9 m ρ c) (Proc.devRef .tc main_v15) = _
  after_results
  exact W9_v15 m ρ c
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) := by
  show StableHlo.after hostOps1 (W6 m ρ c) (Proc.devRef .tc main_arg5) = _
  after_results
  exact W6_arg5 m ρ c
theorem W8_arg5 (c : Dev nD) : W8 m ρ c (Proc.devRef .tc main_arg5) = m ((c : Thread nD τ).loc main_arg5) :=
  (W8_of_ne m ρ c main_arg5 (by decide)).trans (W7_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) := by
  show StableHlo.after hostOps1 (W6 m ρ c) (Proc.devRef .tc main_arg6) = _
  after_results
  exact W6_arg6 m ρ c
theorem W8_arg6 (c : Dev nD) : W8 m ρ c (Proc.devRef .tc main_arg6) = m ((c : Thread nD τ).loc main_arg6) :=
  (W8_of_ne m ρ c main_arg6 (by decide)).trans (W7_arg6 m ρ c)
theorem W9_arg6 (c : Dev nD) : W9 m ρ c (Proc.devRef .tc main_arg6) = m ((c : Thread nD τ).loc main_arg6) :=
  (W9_of_ne m ρ c main_arg6 (by decide)).trans (W8_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W7_arg7 (c : Dev nD) : W7 m ρ c (Proc.devRef .tc main_arg7) = m ((c : Thread nD τ).loc main_arg7) := by
  show StableHlo.after hostOps1 (W6 m ρ c) (Proc.devRef .tc main_arg7) = _
  after_results
  exact W6_arg7 m ρ c
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) :=
  (W9_of_ne m ρ c main_arg7 (by decide)).trans (W8_arg7 m ρ c)
theorem W10_arg7 (c : Dev nD) : W10 m ρ c (Proc.devRef .tc main_arg7) = m ((c : Thread nD τ).loc main_arg7) := by
  show StableHlo.after hostOps3 (W9 m ρ c) (Proc.devRef .tc main_arg7) = _
  after_results
  exact W9_arg7 m ρ c
theorem W11_arg7 (c : Dev nD) : W11 m ρ c (Proc.devRef .tc main_arg7) = m ((c : Thread nD τ).loc main_arg7) :=
  (W11_of_ne m ρ c main_arg7 (by decide)).trans (W10_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) := by
  show StableHlo.after hostOps1 (W6 m ρ c) (Proc.devRef .tc main_arg8) = _
  after_results
  exact W6_arg8 m ρ c
theorem W8_arg8 (c : Dev nD) : W8 m ρ c (Proc.devRef .tc main_arg8) = m ((c : Thread nD τ).loc main_arg8) :=
  (W8_of_ne m ρ c main_arg8 (by decide)).trans (W7_arg8 m ρ c)
theorem W9_arg8 (c : Dev nD) : W9 m ρ c (Proc.devRef .tc main_arg8) = m ((c : Thread nD τ).loc main_arg8) :=
  (W9_of_ne m ρ c main_arg8 (by decide)).trans (W8_arg8 m ρ c)
theorem W10_arg8 (c : Dev nD) : W10 m ρ c (Proc.devRef .tc main_arg8) = m ((c : Thread nD τ).loc main_arg8) := by
  show StableHlo.after hostOps3 (W9 m ρ c) (Proc.devRef .tc main_arg8) = _
  after_results
  exact W9_arg8 m ρ c
theorem W11_arg8 (c : Dev nD) : W11 m ρ c (Proc.devRef .tc main_arg8) = m ((c : Thread nD τ).loc main_arg8) :=
  (W11_of_ne m ρ c main_arg8 (by decide)).trans (W10_arg8 m ρ c)

/-! ## Launch 0: the first scaled product -/

theorem W6_v16 (c : Dev nD) : W6 m ρ c (Proc.devRef .tc main_v16) = (Cert.Gcn.scaleProd (A := 100000) (K := 64) (B := 64) (m ((c : Thread nD τ).loc main_arg0)) (Cert.Gcn.Stages.colS shapeCasts_S100000_S100000x1 (m ((c : Thread nD τ).loc main_arg1))) (m ((c : Thread nD τ).loc main_arg3))) := by
  refine (W6_arr m ρ c 3).trans ((Cert.KernelIdeal.Region0.value (V5 m ρ) c).trans ?_)
  show Cert.Gcn.scaleProd (A := 100000) (K := 64) (B := 64) (W5 m ρ c (Proc.devRef .tc main_arg0)) (W5 m ρ c (Proc.devRef .tc main_v13)) (W5 m ρ c (Proc.devRef .tc main_arg3)) = _
  rw [W5_arg0, W5_v13, W5_arg3]

/-! ## The first aggregation and the first bias row -/

theorem W7_v26 (c : Dev nD) : W7 m ρ c (Proc.devRef .tc main_v26)
    = Cert.Gcn.Stages.agg (m ((c : Thread nD τ).loc main_arg1)) (m ((c : Thread nD τ).loc main_arg2)) (Cert.Gcn.scaleProd (A := 100000) (K := 64) (B := 64) (m ((c : Thread nD τ).loc main_arg0)) (Cert.Gcn.Stages.colS shapeCasts_S100000_S100000x1 (m ((c : Thread nD τ).loc main_arg1))) (m ((c : Thread nD τ).loc main_arg3))) := by
  show StableHlo.after hostOps1 (W6 m ρ c) (Proc.devRef .tc main_v26) = _
  after_results
  rw [W6_v1, W6_v2, W6_v16]
  generalize (Cert.Gcn.scaleProd (A := 100000) (K := 64) (B := 64) (m ((c : Thread nD τ).loc main_arg0)) (Cert.Gcn.Stages.colS shapeCasts_S100000_S100000x1 (m ((c : Thread nD τ).loc main_arg1))) (m ((c : Thread nD τ).loc main_arg3))) = H
  rfl

theorem W7_v27 (c : Dev nD) : W7 m ρ c (Proc.devRef .tc main_v27) = shapeCast S1x64 (m ((c : Thread nD τ).loc main_arg4)) shapeCasts_S64_S1x64 := by
  show StableHlo.after hostOps1 (W6 m ρ c) (Proc.devRef .tc main_v27) = _
  after_results
  rw [W6_arg4]
  rfl

/-! ## Launch 1: the hidden layer -/

theorem W8_v28 (c : Dev nD) : W8 m ρ c (Proc.devRef .tc main_v28) = (Cert.Gcn.Stages.hidden shapeCasts_S100000_S100000x1 shapeCasts_S64_S1x64 (m ((c : Thread nD τ).loc main_arg0)) (m ((c : Thread nD τ).loc main_arg1)) (m ((c : Thread nD τ).loc main_arg2)) (m ((c : Thread nD τ).loc main_arg3)) (m ((c : Thread nD τ).loc main_arg4))) := by
  refine (W8_arr m ρ c 3).trans ((Cert.KernelIdeal.Region1.value (V7 m ρ) c).trans ?_)
  show Cert.Gcn.scaleBiasMax (A := 100000) (K := 64) (W7 m ρ c (Proc.devRef .tc main_v26)) (W7 m ρ c (Proc.devRef .tc main_v15)) (W7 m ρ c (Proc.devRef .tc main_v27)) _ = _
  rw [W7_v26, W7_v15, W7_v27]
  rfl

/-! ## Launch 2: the second scaled product -/

theorem W9_v29 (c : Dev nD) : W9 m ρ c (Proc.devRef .tc main_v29) = (Cert.Gcn.scaleProd (A := 100000) (K := 64) (B := 64) (Cert.Gcn.Stages.hidden shapeCasts_S100000_S100000x1 shapeCasts_S64_S1x64 (m ((c : Thread nD τ).loc main_arg0)) (m ((c : Thread nD τ).loc main_arg1)) (m ((c : Thread nD τ).loc main_arg2)) (m ((c : Thread nD τ).loc main_arg3)) (m ((c : Thread nD τ).loc main_arg4))) (Cert.Gcn.Stages.colS shapeCasts_S100000_S100000x1 (m ((c : Thread nD τ).loc main_arg1))) (m ((c : Thread nD τ).loc main_arg5))) := by
  refine (W9_arr m ρ c 3).trans ((Cert.KernelIdeal.Region2.value (V8 m ρ) c).trans ?_)
  show Cert.Gcn.scaleProd (A := 100000) (K := 64) (B := 64) (W8 m ρ c (Proc.devRef .tc main_v28)) (W8 m ρ c (Proc.devRef .tc main_v13)) (W8 m ρ c (Proc.devRef .tc main_arg5)) = _
  rw [W8_v28, W8_v13, W8_arg5]

/-! ## The second aggregation and the second bias row -/

theorem W10_v39 (c : Dev nD) : W10 m ρ c (Proc.devRef .tc main_v39)
    = Cert.Gcn.Stages.agg (m ((c : Thread nD τ).loc main_arg1)) (m ((c : Thread nD τ).loc main_arg2)) (Cert.Gcn.scaleProd (A := 100000) (K := 64) (B := 64) (Cert.Gcn.Stages.hidden shapeCasts_S100000_S100000x1 shapeCasts_S64_S1x64 (m ((c : Thread nD τ).loc main_arg0)) (m ((c : Thread nD τ).loc main_arg1)) (m ((c : Thread nD τ).loc main_arg2)) (m ((c : Thread nD τ).loc main_arg3)) (m ((c : Thread nD τ).loc main_arg4))) (Cert.Gcn.Stages.colS shapeCasts_S100000_S100000x1 (m ((c : Thread nD τ).loc main_arg1))) (m ((c : Thread nD τ).loc main_arg5))) := by
  show StableHlo.after hostOps3 (W9 m ρ c) (Proc.devRef .tc main_v39) = _
  after_results
  rw [W9_v1, W9_v2, W9_v29]
  generalize (Cert.Gcn.scaleProd (A := 100000) (K := 64) (B := 64) (Cert.Gcn.Stages.hidden shapeCasts_S100000_S100000x1 shapeCasts_S64_S1x64 (m ((c : Thread nD τ).loc main_arg0)) (m ((c : Thread nD τ).loc main_arg1)) (m ((c : Thread nD τ).loc main_arg2)) (m ((c : Thread nD τ).loc main_arg3)) (m ((c : Thread nD τ).loc main_arg4))) (Cert.Gcn.Stages.colS shapeCasts_S100000_S100000x1 (m ((c : Thread nD τ).loc main_arg1))) (m ((c : Thread nD τ).loc main_arg5))) = H
  rfl

theorem W10_v40 (c : Dev nD) : W10 m ρ c (Proc.devRef .tc main_v40) = shapeCast S1x64 (m ((c : Thread nD τ).loc main_arg6)) shapeCasts_S64_S1x64 := by
  show StableHlo.after hostOps3 (W9 m ρ c) (Proc.devRef .tc main_v40) = _
  after_results
  rw [W9_arg6]
  rfl

/-! ## Launch 3: the second layer -/

theorem W11_v41 (c : Dev nD) : W11 m ρ c (Proc.devRef .tc main_v41) = (Cert.Gcn.Stages.second shapeCasts_S100000_S100000x1 shapeCasts_S64_S1x64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W11_arr m ρ c 3).trans ((Cert.KernelIdeal.Region3.value (V10 m ρ) c).trans ?_)
  show Cert.Gcn.scaleBias (A := 100000) (K := 64) (W10 m ρ c (Proc.devRef .tc main_v39)) (W10 m ρ c (Proc.devRef .tc main_v15)) (W10 m ρ c (Proc.devRef .tc main_v40)) = _
  rw [W10_v39, W10_v15, W10_v40]
  rfl

/-! ## The padded regressor: the weights written into column 0 of a zero [64, 128] matrix, the bias into entry 0 of a
    zero [1, 128] row -/

/-- The regressor's weights as column 0 of a [64, 128] matrix of zeros. -/
def wPad (a7 : FVec Ideal S64x1 .f32) : FVec Ideal S64x128 .f32 :=
  Host.scatter scatter_S64x128_S1_S64x1_01_n_1_0 (fun _ b => b)
    (broadcastInDim S64x128 ![] bcast_S_S64x128 (constant S_ .f32 0x00000000#32))
    (broadcastInDim S1 ![] bcast_S_S1 (constantI S_ 32 0#32)) a7

/-- The regressor's bias as entry 0 of a [1, 128] row of zeros. -/
def bPad (a8 : FVec Ideal S1 .f32) : FVec Ideal S1x128 .f32 :=
  Host.scatter scatter_S1x128_S1_S1x1_01_n_1_0 (fun _ b => b)
    (broadcastInDim S1x128 ![] bcast_S_S1x128 (constant S_ .f32 0x00000000#32))
    (broadcastInDim S1 ![] bcast_S_S1 (constantI S_ 32 0#32)) (shapeCast S1x1 a8 shapeCasts_S1_S1x1)

theorem W12_v44 (c : Dev nD) : W12 m ρ c (Proc.devRef .tc main_v44) = wPad (m ((c : Thread nD τ).loc main_arg7)) := by
  show StableHlo.after hostOps4 (W11 m ρ c) (Proc.devRef .tc main_v44) = _
  after_results
  rw [W11_arg7]
  rfl

theorem W12_v48 (c : Dev nD) : W12 m ρ c (Proc.devRef .tc main_v48) = bPad (m ((c : Thread nD τ).loc main_arg8)) := by
  show StableHlo.after hostOps4 (W11 m ρ c) (Proc.devRef .tc main_v48) = _
  after_results
  rw [W11_arg8]
  rfl

theorem W12_v41 (c : Dev nD) : W12 m ρ c (Proc.devRef .tc main_v41) = (Cert.Gcn.Stages.second shapeCasts_S100000_S100000x1 shapeCasts_S64_S1x64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps4 (W11 m ρ c) (Proc.devRef .tc main_v41) = _
  after_results
  exact W11_v41 m ρ c

/-! ## Launch 4 and the final slice -/

theorem W13_v49 (c : Dev nD) : W13 m ρ c (Proc.devRef .tc main_v49)
    = Cert.Gcn.prodBias (A := 100000) (K := 64) (B := 128) (Cert.Gcn.Stages.second shapeCasts_S100000_S100000x1 shapeCasts_S64_S1x64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (wPad (m ((c : Thread nD τ).loc main_arg7))) (bPad (m ((c : Thread nD τ).loc main_arg8))) := by
  refine (W13_arr m ρ c 3).trans ((Cert.KernelIdeal.Region4.value (V12 m ρ) c).trans ?_)
  show Cert.Gcn.prodBias (A := 100000) (K := 64) (B := 128) (W12 m ρ c (Proc.devRef .tc main_v41)) (W12 m ρ c (Proc.devRef .tc main_v44)) (W12 m ρ c (Proc.devRef .tc main_v48)) = _
  rw [W12_v41, W12_v44, W12_v48]

/-- THE RESULT: column 0 of the second layer times the padded weights plus the padded bias. -/
theorem W14_v50 (c : Dev nD) : W14 m ρ c (Proc.devRef .tc main_v50)
    = Cert.Gcn.Stages.spec shapeCasts_S100000_S100000x1 shapeCasts_S64_S1x64 slices_S100000x128_S100000x1_0_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (wPad (m ((c : Thread nD τ).loc main_arg7))) (bPad (m ((c : Thread nD τ).loc main_arg8))) := by
  show StableHlo.after hostOps5 (W13 m ρ c) (Proc.devRef .tc main_v50) = _
  after_results
  rw [W13_v49]
  rfl

/-! ## What the padded regressor holds in column 0 -/

/-- Column 0 of the padded weight matrix holds the regressor's weights: update (k, 0) lands on (k, 0), alone. -/
theorem wPad_col0 (a7 : FVec Ideal S64x1 .f32) (k : Fin 64) :
    wPad a7 (ValueIdx.ix2 k (0 : Fin 128)) = a7 (ValueIdx.ix2 k (0 : Fin 1)) :=
  Cert.Lib.SetScatter.scatter_set_col_apply_of_fields (K := 64) (B := 128) scatter_S64x128_S1_S64x1_01_n_1_0 rfl rfl rfl rfl
    (by decide) _ _ (ValueIdx.ix1 (0 : Fin 1)) rfl a7 k

/-- Entry 0 of the padded bias row holds the regressor's bias. -/
theorem bPad_00 (a8 : FVec Ideal S1 .f32) :
    bPad a8 (ValueIdx.ix2 (0 : Fin 1) (0 : Fin 128)) = a8 (ValueIdx.ix1 (0 : Fin 1)) :=
  (Cert.Lib.SetScatter.scatter_set_col_apply_of_fields (K := 1) (B := 128) scatter_S1x128_S1_S1x1_01_n_1_0 rfl rfl rfl rfl
    (by decide) _ _ (ValueIdx.ix1 (0 : Fin 1)) rfl _ (0 : Fin 1)).trans
    (ValueIdx.shapeCast_a_1a_apply a8 shapeCasts_S1_S1x1 (0 : Fin 1) (0 : Fin 1))

end Cert.KernelIdeal.Fold

end
-- ==== Proof.RefSide.lean ====
/-
  THE REFERENCE PROGRAM, STAGE BY STAGE, IS THE COMPOSITION OF THE LAYER FUNCTIONS.

  The reference computes, operation by operation: the inverse square roots of the clipped out- and in-degrees; the
  input rows scaled by the out-degree factor and multiplied by the first weight matrix; the sum of those rows over
  the edges into their targets; that sum scaled by the in-degree factor, the first bias added, clamped at zero; the
  same three steps with the second weight matrix and bias (the degrees computed a second time by the same operations
  on the same index lists) without the clamp; and the product with the [64, 1] regressor plus its bias. Each of these
  stages is one of the layer functions applied to the earlier stages, and the last one is column 0 of a product with
  ANY [64, 128] matrix whose column 0 is the regressor, plus ANY [1, 128] row whose entry 0 is the bias.
-/
import proofs.«143172_j2327872274540_1_alg».proof.Proof.Stages
import proofs.«143172_j2327872274540_1_alg».proof.Proof.LibPlainDot
import Idealize.ShloMosaic.Lib.ValueLayout

noncomputable section

open scoped BigOperators

namespace Cert.Gcn.RefSide

open Cert.ReferenceIdeal Cert.ReferenceIdeal.Read Cert.ReferenceIdeal.Gen Cert.Gcn.Stages
open Idealize.ShloMosaic Idealize.ShloMosaic.ValueIdx

/-- Stage 1: the input rows scaled by the out-degree factor, times the first weight matrix. -/
theorem v16_eq (hc : S100000.ShapeCasts S100000x1) (x0 : FVec Ideal S100000x64 .f32) (x1 : IVec S1600000 32)
    (x3 : FVec Ideal S64x64 .f32) :
    val_main_v16 (F := Ideal) x0 x1 x3
      = Cert.Gcn.scaleProd (A := 100000) (K := 64) (B := 64) x0 (colS hc x1) x3 := by
  unfold val_main_v16 val_main_v15 val_main_v14 val_main_v13 colS
  generalize val_main_v12 (F := Ideal) x1 = v
  exact Cert.Gcn.host_scaleProd (A := 100000) (K := 64) (B := 64) dot_S100000x64_S64x64_S100000x64_1_0_0_1_n_n
    rfl rfl rfl rfl rfl rfl x0 v x3 bcast_S100000_S100000x1_0 bcast_S100000x1_S100000x64_0_1 hc

/-- Stage 2: the aggregation of an array is the reference's gather followed by its add-scatter. -/
theorem v26_eq (x0 : FVec Ideal S100000x64 .f32) (x1 x2 : IVec S1600000 32) (x3 : FVec Ideal S64x64 .f32) :
    val_main_v26 (F := Ideal) x0 x1 x2 x3 = agg x1 x2 (val_main_v16 (F := Ideal) x0 x1 x3) := by
  unfold val_main_v26 val_main_v23 agg
  rfl

/-- Stage 3: the hidden layer. -/
theorem v34_eq (hc : S100000.ShapeCasts S100000x1) (hr : S64.ShapeCasts S1x64)
    (x0 : FVec Ideal S100000x64 .f32) (x1 x2 : IVec S1600000 32) (x3 : FVec Ideal S64x64 .f32) (x4 : FVec Ideal S64 .f32) :
    val_main_v34 (F := Ideal) x0 x1 x2 x3 x4 = Cert.Gcn.Stages.hidden hc hr x0 x1 x2 x3 x4 := by
  unfold val_main_v34 val_main_v33 val_main_v30 val_main_v32 val_main_v31 val_main_v29 val_main_v28
    val_main_call2_v0 val_main_call2_cst Cert.Gcn.Stages.hidden colT
  rw [v26_eq, v16_eq hc]
  generalize agg x1 x2 (Cert.Gcn.scaleProd (A := 100000) (K := 64) (B := 64) x0 (colS hc x1) x3) = Z
  generalize val_main_v27 (F := Ideal) x2 = v
  exact Cert.Gcn.host_scaleBiasMax (A := 100000) (K := 64) Z v x4 bcast_S100000_S100000x1_0 bcast_S100000x1_S100000x64_0_1 hc
    bcast_S64_S1x64_1 bcast_S1x64_S100000x64_0_1 hr (constant S_ .f32 0x00000000#32) bcast_S_S100000x64

/-! ## The second layer computes the degrees and the index lists again, by the same operations -/

theorem v36_eq : val_main_v36 (F := Ideal) = val_main_v4 (F := Ideal) := rfl
theorem v35_eq : val_main_v35 (F := Ideal) = val_main_v3 (F := Ideal) := rfl
theorem v37_eq (x1 : IVec S1600000 32) : val_main_v37 (F := Ideal) x1 = val_main_v5 (F := Ideal) x1 := rfl
theorem call3_v1_eq : val_main_call3_v1 (F := Ideal) = val_main_call0_v1 (F := Ideal) := rfl
theorem v40_eq : val_main_v40 (F := Ideal) = val_main_v8 (F := Ideal) := rfl
theorem v41_eq (x2 : IVec S1600000 32) : val_main_v41 (F := Ideal) x2 = val_main_v9 (F := Ideal) x2 := rfl
theorem call4_v1_eq : val_main_call4_v1 (F := Ideal) = val_main_call1_v1 (F := Ideal) := rfl

/-- The out-degree factor of the second layer is the first layer's. -/
theorem v44_eq (x1 : IVec S1600000 32) : val_main_v44 (F := Ideal) x1 = val_main_v12 (F := Ideal) x1 := by
  unfold val_main_v44 val_main_v39 val_main_v38 val_main_v12 val_main_v7 val_main_v6
  rw [v36_eq, v35_eq, v37_eq, call3_v1_eq]

/-- The in-degree factor of the second layer is the first layer's. -/
theorem v59_eq (x2 : IVec S1600000 32) : val_main_v59 (F := Ideal) x2 = val_main_v27 (F := Ideal) x2 := by
  unfold val_main_v59 val_main_v43 val_main_v42 val_main_v27 val_main_v11 val_main_v10
  rw [v40_eq, v35_eq, v41_eq, call4_v1_eq]

theorem v49_eq : val_main_v49 (F := Ideal) = val_main_v17 (F := Ideal) := rfl
theorem v51_eq : val_main_v51 (F := Ideal) = val_main_v19 (F := Ideal) := rfl
theorem v56_eq : val_main_v56 (F := Ideal) = val_main_v24 (F := Ideal) := rfl
theorem v57_eq (x2 : IVec S1600000 32) : val_main_v57 (F := Ideal) x2 = val_main_v25 (F := Ideal) x2 := rfl

/-- The wrapped source indices of the second layer are the first layer's. -/
theorem v54_eq (x1 : IVec S1600000 32) : val_main_v54 (F := Ideal) x1 = val_main_v22 (F := Ideal) x1 := by
  unfold val_main_v54 val_main_v53 val_main_v50 val_main_v52 val_main_v22 val_main_v21 val_main_v18 val_main_v20
  rw [v49_eq, v51_eq]

/-- Stage 4a: the hidden layer's rows scaled by the out-degree factor, times the second weight matrix. -/
theorem v48_eq (hc : S100000.ShapeCasts S100000x1) (hr : S64.ShapeCasts S1x64)
    (x0 : FVec Ideal S100000x64 .f32) (x1 x2 : IVec S1600000 32) (x3 : FVec Ideal S64x64 .f32) (x4 : FVec Ideal S64 .f32)
    (x5 : FVec Ideal S64x64 .f32) :
    val_main_v48 (F := Ideal) x0 x1 x2 x3 x4 x5
      = Cert.Gcn.scaleProd (A := 100000) (K := 64) (B := 64) (Cert.Gcn.Stages.hidden hc hr x0 x1 x2 x3 x4) (colS hc x1) x5 := by
  unfold val_main_v48 val_main_v47 val_main_v46 val_main_v45 colS
  rw [v44_eq, v34_eq hc hr]
  generalize Cert.Gcn.Stages.hidden hc hr x0 x1 x2 x3 x4 = H
  generalize val_main_v12 (F := Ideal) x1 = v
  exact Cert.Gcn.host_scaleProd (A := 100000) (K := 64) (B := 64) dot_S100000x64_S64x64_S100000x64_1_0_0_1_n_n
    rfl rfl rfl rfl rfl rfl H v x5 bcast_S100000_S100000x1_0 bcast_S100000x1_S100000x64_0_1 hc

/-- Stage 4b: the second aggregation is the same gather and add-scatter. -/
theorem v58_eq (x0 : FVec Ideal S100000x64 .f32) (x1 x2 : IVec S1600000 32) (x3 : FVec Ideal S64x64 .f32)
    (x4 : FVec Ideal S64 .f32) (x5 : FVec Ideal S64x64 .f32) :
    val_main_v58 (F := Ideal) x0 x1 x2 x3 x4 x5 = agg x1 x2 (val_main_v48 (F := Ideal) x0 x1 x2 x3 x4 x5) := by
  unfold val_main_v58 val_main_v55 agg
  rw [v56_eq, v57_eq, v54_eq]

/-- Stage 4c: the second layer. -/
theorem v65_eq (hc : S100000.ShapeCasts S100000x1) (hr : S64.ShapeCasts S1x64)
    (x0 : FVec Ideal S100000x64 .f32) (x1 x2 : IVec S1600000 32) (x3 : FVec Ideal S64x64 .f32) (x4 : FVec Ideal S64 .f32)
    (x5 : FVec Ideal S64x64 .f32) (x6 : FVec Ideal S64 .f32) :
    val_main_v65 (F := Ideal) x0 x1 x2 x3 x4 x5 x6 = second hc hr x0 x1 x2 x3 x4 x5 x6 := by
  unfold val_main_v65 val_main_v62 val_main_v61 val_main_v60 val_main_v64 val_main_v63 second colT
  rw [v58_eq, v48_eq hc hr, v59_eq]
  generalize agg x1 x2 (Cert.Gcn.scaleProd (A := 100000) (K := 64) (B := 64)
    (Cert.Gcn.Stages.hidden hc hr x0 x1 x2 x3 x4) (colS hc x1) x5) = Z
  generalize val_main_v27 (F := Ideal) x2 = v
  exact Cert.Gcn.host_scaleBias (A := 100000) (K := 64) Z v x6 bcast_S100000_S100000x1_0 bcast_S100000x1_S100000x64_0_1 hc
    bcast_S64_S1x64_1 bcast_S1x64_S100000x64_0_1 hr

/-! ## The last stage: the regressor's product and bias are column 0 of a wider product and row -/

/-- Stage 5: the reference's result is column 0 of the second layer times ANY [64, 128] matrix whose column 0 is the
    regressor's weight column, plus ANY [1, 128] row whose entry 0 is the regressor's bias. -/
theorem ref_eq (hc : S100000.ShapeCasts S100000x1) (hr : S64.ShapeCasts S1x64)
    (hs : (⟨2, ![100000, 128]⟩ : Shape).Slices ![0, 0] S100000x1)
    (x0 : FVec Ideal S100000x64 .f32) (x1 x2 : IVec S1600000 32) (x3 : FVec Ideal S64x64 .f32) (x4 : FVec Ideal S64 .f32)
    (x5 : FVec Ideal S64x64 .f32) (x6 : FVec Ideal S64 .f32) (x7 : FVec Ideal S64x1 .f32) (x8 : FVec Ideal S1 .f32)
    (P : FVec Ideal ⟨2, ![64, 128]⟩ .f32) (p : FVec Ideal ⟨2, ![1, 128]⟩ .f32)
    (hP : ∀ k : Fin 64, P (ix2 k (0 : Fin 128)) = x7 (ix2 k (0 : Fin 1)))
    (hp : p (ix2 (0 : Fin 1) (0 : Fin 128)) = x8 (ix1 (0 : Fin 1))) :
    val_main_v69 (F := Ideal) x0 x1 x2 x3 x4 x5 x6 x7 x8
      = spec hc hr hs x0 x1 x2 x3 x4 x5 x6 P p := by
  funext i
  obtain ⟨r, c, rfl⟩ : ∃ (r : Fin 100000) (c : Fin 1), i = ix2 r c := ⟨i 0, i 1, eq_ix2 i⟩
  obtain rfl : c = 0 := Subsingleton.elim _ _
  unfold val_main_v69 val_main_v66 val_main_v68 val_main_v67 spec
  rw [v65_eq hc hr]
  generalize second hc hr x0 x1 x2 x3 x4 x5 x6 = H2
  rw [addf_apply,
    Cert.Lib.PlainDot.eq_plain (A := 100000) (K := 64) (B := 1) dot_S100000x64_S64x1_S100000x1_1_0_0_1_n_n rfl rfl rfl rfl rfl rfl,
    Cert.Lib.PlainDot.dotGeneral_plain_apply (A := 100000) (K := 64) (B := 1) none H2 x7,
    Cert.LibSegSum.bcast_row_apply (A := 100000) (B := 1) bcast_S1_S1x1_1 bcast_S1x1_S100000x1_0_1 x8 r (0 : Fin 1),
    slice2_axis1_apply (n0 := 100000) (n1 := 128) (m := 1) 0 (Cert.Gcn.prodBias (A := 100000) (K := 64) (B := 128) H2 P p) hs r
      (0 : Fin 1) (0 : Fin 128) rfl,
    Cert.Gcn.prodBias_apply, hp]
  refine congrArg (fun t => t + x8 (ix1 (0 : Fin 1))) (Finset.sum_congr rfl fun k _ => ?_)
  exact congrArg (fun t => H2 (ix2 r k) * t) (hP k).symm

end Cert.Gcn.RefSide

end
-- ==== Proof.lean ====
/-
  The certificate of a two-layer graph convolution with a linear regressor: a tiled kernel version against its plain
  reference, equal on the extended reals.

  Both programs compute, from node features x, an edge list (src, dst), two weight matrices with biases and a
  regressor (Wr, br):  with the self loops added and d_out, d_in the degrees clipped below by one,

      H1 = max (D_in^(-1/2) · Agg ((D_out^(-1/2) · x) · W1) + b1, 0),
      H2 =      D_in^(-1/2) · Agg ((D_out^(-1/2) · H1) · W2) + b2,       result = H2 · Wr + br,

  where Agg sums the rows gathered at the edges' sources into the edges' targets.  The reference states this with whole
  arrays.  The kernel computes the three dense stages of each layer in five launches tiled into 20 blocks of 5000
  rows, with the edge aggregation on the host between them, the regressor padded to 128 columns and column 0 kept.

  At the ideal values the two agree stage by stage with no algebra beyond this: a product accumulated into zero is the
  plain sum; a change of float format is the identity; every dense stage depends row by row on its operands, so a
  row tiling computes it block by block; a vector reshaped to a column and a vector broadcast to a column hold the
  same entries; column 0 of a product with a matrix whose column 0 is Wr is the product with Wr.  The edge stages are
  the same operations applied to arrays already shown equal, and are never opened.  No law used needs finiteness,
  so the precondition is not opened.

  The frames of the two kernel programs are the generated ones; the reference's frame is its generated run with the
  result dropped; the idealization rewrote nothing, so there is nothing to preserve.
-/
import proofs.«143172_j2327872274540_1_alg».proof.Defs
import proofs.«143172_j2327872274540_1_alg».proof.Proof.Gen.Kernel
import proofs.«143172_j2327872274540_1_alg».proof.Proof.Gen.Kernel.Skeleton
import proofs.«143172_j2327872274540_1_alg».proof.Proof.Gen.Kernel.Launch
import proofs.«143172_j2327872274540_1_alg».proof.Proof.Gen.Kernel.Points
import proofs.«143172_j2327872274540_1_alg».proof.Proof.Gen.Kernel.Frame
import proofs.«143172_j2327872274540_1_alg».proof.Proof.Gen.KernelIdeal
import proofs.«143172_j2327872274540_1_alg».proof.Proof.Gen.KernelIdeal.Skeleton
import proofs.«143172_j2327872274540_1_alg».proof.Proof.Gen.KernelIdeal.Launch
import proofs.«143172_j2327872274540_1_alg».proof.Proof.Gen.KernelIdeal.Points
import proofs.«143172_j2327872274540_1_alg».proof.Proof.Gen.KernelIdeal.Frame
import proofs.«143172_j2327872274540_1_alg».proof.Proof.Gen.ReferenceIdeal
import proofs.«143172_j2327872274540_1_alg».proof.Proof.Gen.Pre_finite_inputs
import proofs.«143172_j2327872274540_1_alg».proof.Proof.Gen.ReferenceIdeal.Run
import proofs.«143172_j2327872274540_1_alg».proof.Proof.Gen.ReferenceIdeal.Read
import proofs.«143172_j2327872274540_1_alg».proof.Proof.KernelRun
import proofs.«143172_j2327872274540_1_alg».proof.Proof.Fold
import proofs.«143172_j2327872274540_1_alg».proof.Proof.RefSide
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the one composition of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun r h c => ⟨(h c).1.trans (Cert.KernelIdeal.Fold.W14_v50 m ρ c), (h c).2⟩)
    (Cert.KernelIdeal.RunValue.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v69_eq, h0, h1, h2, h3, h4, h5, h6, h7, h8]
  exact Cert.Gcn.RefSide.ref_eq _ _ _ _ _ _ _ _ _ _ _ _ _ _
    (Cert.KernelIdeal.Fold.wPad_col0 _) (Cert.KernelIdeal.Fold.bPad_00 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
